-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S2048x1024 : Shape := ⟨2, ![2048, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S2048x1024 .f32) (main_arg8 : FVec F S1024 .f32) (main_arg9 : FVec F S2048x1024 .f32) (main_arg10 : FVec F S1024 .f32) (main_v33 : IVec S_ 1) : IVec S_ 1 :=
  let main_v34 : FVec F S2048x1024 .f32 := Host.absf main_arg7
  let main_cst_12 : FVec F S_ .f32 := constant S_ .f32 0x7F800000#32
  let main_v35 : FVec F S2048x1024 .f32 := broadcastInDim S2048x1024 ![] bcast_S_S2048x1024 main_cst_12
  let main_v36 : IVec S2048x1024 1 := cmpf .olt main_v34 main_v35
  let main_c_13 : IVec S_ 1 := constantI S_ 1 1#1
  let main_v37 : IVec S_ 1 := (fun x v => Host.reduce IntOp.andi x v reducesTo_S2048x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S2048x1024 .f32 := Host.absf main_arg9
  let main_cst_16 : FVec F S_ .f32 := constant S_ .f32 0x7F800000#32
  let main_v45 : FVec F S2048x1024 .f32 := broadcastInDim S2048x1024 ![] bcast_S_S2048x1024 main_cst_16
  let main_v46 : IVec S2048x1024 1 := cmpf .olt main_v44 main_v45
  let main_c_17 : IVec S_ 1 := constantI S_ 1 1#1
  let main_v47 : IVec S_ 1 := (fun x v => Host.reduce IntOp.andi x v reducesTo_S2048x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S2048x1024 .f32) (main_arg6 : FVec F S1024 .f32) (main_arg7 : FVec F S2048x1024 .f32) (main_arg8 : FVec F S1024 .f32) (main_arg9 : FVec F S2048x1024 .f32) (main_arg10 : FVec F S1024 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S2048x1024 .f32 := Host.absf main_arg5
  let main_cst_8 : FVec F S_ .f32 := constant S_ .f32 0x7F800000#32
  let main_v25 : FVec F S2048x1024 .f32 := broadcastInDim S2048x1024 ![] bcast_S_S2048x1024 main_cst_8
  let main_v26 : IVec S2048x1024 1 := cmpf .olt main_v24 main_v25
  let main_c_9 : IVec S_ 1 := constantI S_ 1 1#1
  let main_v27 : IVec S_ 1 := (fun x v => Host.reduce IntOp.andi x v reducesTo_S2048x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S8192x1024 .f32) (main_arg1 : FVec F S8192x1024 .f32) (main_arg2 : FVec F S8192x1024 .f32) (main_arg3 : FVec F S2048x1024 .f32) (main_arg4 : FVec F S1024 .f32) (main_arg5 : FVec F S2048x1024 .f32) (main_arg6 : FVec F S1024 .f32) (main_arg7 : FVec F S2048x1024 .f32) (main_arg8 : FVec F S1024 .f32) (main_arg9 : FVec F S2048x1024 .f32) (main_arg10 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_arg5 main_arg6 main_arg7 main_arg8 main_arg9 main_arg10 main_v13 main_v16
-- ==== Kernel.lean ====
abbrev S8192x1024 : Shape := ⟨2, ![8192, 1024]⟩
abbrev S2048x1024 : Shape := ⟨2, ![2048, 1024]⟩
abbrev S1024 : Shape := ⟨1, ![1024]⟩
abbrev S2048x4096 : Shape := ⟨2, ![2048, 4096]⟩
abbrev S4096 : Shape := ⟨1, ![4096]⟩
abbrev S1x4096 : Shape := ⟨2, ![1, 4096]⟩
abbrev S256x1024 : Shape := ⟨2, ![256, 1024]⟩
abbrev S256x2048 : Shape := ⟨2, ![256, 2048]⟩
abbrev S256x4096 : Shape := ⟨2, ![256, 4096]⟩

abbrev nBuf : Space → Nat
  | .hbm => 17
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S2048x1024, .f32⟩
  | .hbm, ⟨4, _⟩ => ⟨S1024, .f32⟩
  | .hbm, ⟨5, _⟩ => ⟨S2048x1024, .f32⟩
  | .hbm, ⟨6, _⟩ => ⟨S1024, .f32⟩
  | .hbm, ⟨7, _⟩ => ⟨S2048x1024, .f32⟩
  | .hbm, ⟨8, _⟩ => ⟨S1024, .f32⟩
  | .hbm, ⟨9, _⟩ => ⟨S2048x1024, .f32⟩
  | .hbm, ⟨10, _⟩ => ⟨S1024, .f32⟩
  | .hbm, ⟨11, _⟩ => ⟨S2048x4096, .f32⟩
  | .hbm, ⟨12, _⟩ => ⟨S2048x4096, .bf16⟩
  | .hbm, ⟨13, _⟩ => ⟨S4096, .f32⟩
  | .hbm, ⟨14, _⟩ => ⟨S1x4096, .f32⟩
  | .hbm, ⟨15, _⟩ => ⟨S8192x1024, .f32⟩
  | .hbm, ⟨16, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S2048x4096, .bf16⟩
  | .local _ .vmem, ⟨7, _⟩ => ⟨S1x4096, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  concatenates_S2048x1024_S2048x1024_S2048x1024_S2048x1024_S2048x4096_d1 : Shape.Concatenates [S2048x1024, S2048x1024, S2048x1024, S2048x1024] S2048x4096 1
  bitsLt_bf16_f32 : FTy.bits .bf16 < FTy.bits .f32
  concatenates_S1024_S1024_S1024_S1024_S4096_d0 : Shape.Concatenates [S1024, S1024, S1024, S1024] S4096 0
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  concatenates_S256x1024_S256x1024_S256x2048_d1 : Shape.Concatenates [S256x1024, S256x1024] S256x2048 1
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x2048_S2048x4096_S256x4096_1_0_0_1_n_n_wf : DotDims.WF S256x2048 S2048x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x4096.size a ≤ S2048x4096.size a
  hwx0_3 : ∀ i : grid0.Coords, EltTy.bits .bf16 = 32 ∨ (Rect.block (s := S2048x4096) S2048x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S8192x1024.size a
  hwx0_5 : ∀ i : grid0.Coords, EltTy.bits .f32 = 32 ∨ (Rect.block (s := S8192x1024) S256x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S8192x1024.size a
  hwx0_6 : ∀ i : grid0.Coords, EltTy.bits .f32 = 32 ∨ (Rect.block (s := S8192x1024) S256x1024.size (cc0_transform_6 i) (hinb0_6 i)).WholeWords (EltTy.packing .f32)

variable [Facts₀]

def dot_S256x2048_S2048x4096_S256x4096_1_0_0_1_n_n : DotDims S256x2048 S2048x4096 S256x4096 where
  lhsContracting := [1]
  rhsContracting := [0]
  lhsNonContracting := [0]
  rhsNonContracting := [1]
  lhsBatch := []
  rhsBatch := []
  wf := dot_S256x2048_S2048x4096_S256x4096_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4_0) S256x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_1) S256x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S2048x1024 : Shape := ⟨2, ![2048, 1024]⟩
abbrev S1024 : Shape := ⟨1, ![1024]⟩
abbrev S8192x2048 : Shape := ⟨2, ![8192, 2048]⟩
abbrev S2048x4096 : Shape := ⟨2, ![2048, 4096]⟩
abbrev S4096 : Shape := ⟨1, ![4096]⟩
abbrev S8192x4096 : Shape := ⟨2, ![8192, 4096]⟩
abbrev S1x4096 : Shape := ⟨2, ![1, 4096]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S2048x1024, .f32⟩
  | .hbm, ⟨4, _⟩ => ⟨S1024, .f32⟩
  | .hbm, ⟨5, _⟩ => ⟨S2048x1024, .f32⟩
  | .hbm, ⟨6, _⟩ => ⟨S1024, .f32⟩
  | .hbm, ⟨7, _⟩ => ⟨S2048x1024, .f32⟩
  | .hbm, ⟨8, _⟩ => ⟨S1024, .f32⟩
  | .hbm, ⟨9, _⟩ => ⟨S2048x1024, .f32⟩
  | .hbm, ⟨10, _⟩ => ⟨S1024, .f32⟩
  | .hbm, ⟨11, _⟩ => ⟨S8192x2048, .f32⟩
  | .hbm, ⟨12, _⟩ => ⟨S2048x4096, .f32⟩
  | .hbm, ⟨13, _⟩ => ⟨S4096, .f32⟩
  | .hbm, ⟨14, _⟩ => ⟨S8192x4096, .f32⟩
  | .hbm, ⟨15, _⟩ => ⟨S1x4096, .f32⟩
  | .hbm, ⟨16, _⟩ => ⟨S8192x4096, .f32⟩
  | .hbm, ⟨17, _⟩ => ⟨S8192x4096, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩

abbrev nD : Nat := 1
abbrev τ : Topo := Topo.v7x

variable {F : FTy → Type} [FloatOps F]

class Facts₀ : Prop where
  concatenates_S8192x1024_S8192x1024_S8192x2048_d1 : Shape.Concatenates [S8192x1024, S8192x1024] S8192x2048 1
  concatenates_S2048x1024_S2048x1024_S2048x1024_S2048x1024_S2048x4096_d1 : Shape.Concatenates [S2048x1024, S2048x1024, S2048x1024, S2048x1024] S2048x4096 1
  concatenates_S1024_S1024_S1024_S1024_S4096_d0 : Shape.Concatenates [S1024, S1024, S1024, S1024] S4096 0
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  slices_S8192x4096_S8192x1024_0_0 : S8192x4096.Slices ![0, 0] S8192x1024
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  bcast_S_S8192x1024 : S_.BroadcastsInDim S8192x1024 (![] : Fin 0 → Fin S8192x1024.rank)
  dot_S8192x2048_S2048x4096_S8192x4096_1_0_0_1_n_n_wf : DotDims.WF S8192x2048 S2048x4096 S8192x4096 [1] [0] [0] [1] [] []

variable [Facts₀]

def dot_S8192x2048_S2048x4096_S8192x4096_1_0_0_1_n_n : DotDims S8192x2048 S2048x4096 S8192x4096 where
  lhsContracting := [1]
  rhsContracting := [0]
  lhsNonContracting := [0]
  rhsNonContracting := [1]
  lhsBatch := []
  rhsBatch := []
  wf := dot_S8192x2048_S2048x4096_S8192x4096_1_0_0_1_n_n_wf

class Facts : Prop extends Facts₀ where

variable [Facts]
-- ==== Proof.RegionBits.lean ====
/-
  The run of the one pipelined region of this program, for any float instance.

  The program first builds, on the host, the fused weight matrix (the four gate matrices side by side, narrowed to
  bf16) and the fused bias row (the four gate biases end to end, as one row); then one pipelined region walks the 32
  row blocks of the batch. At block t the body reads rows [256 t, 256 t + 256) of x, h and c, the whole weight matrix
  and the whole bias row, and writes rows [256 t, 256 t + 256) of the two results. Nothing else is touched.

  This module says what each staging buffer holds around the body (the inputs: the block of the array as the region
  found it; the outputs: the body's two stored values as functions of the input blocks), runs the body once at a
  symbolic block, and concludes that every execution of the program ends, with each result array assembled from the
  blocks written back and every other array as the region found it. The eleven argument arrays are not written by the
  host prefix either, so they end as they started.
-/
import proofs.«118580_j32933809225810_1_alg».proof.Proof.Gen.Kernel.Launch
import proofs.«118580_j32933809225810_1_alg».proof.Proof.Gen.Kernel.Skeleton
import proofs.«118580_j32933809225810_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered -/

/-- Core c's arrays after the four host operations: the fused weights, their bf16 narrowing, the fused bias and its
    one-row form have been written; everything else is as launched. -/
abbrev atEntry (c : Dev nD) (b : Ref sig .tc) : Buf (Elt F) ((c : Thread nD τ).loc b) :=
  StableHlo.after hostOps0 (fun b => m (c, b)) b

/-- None of the four host operations allocates anything. -/
theorem hostOps0_fresh : (hostOps0 : List (HloOp τ sig (Elt F))).Forall fun op => op.fresh = ∅ := by
  simp only [List.Forall]; repeat' constructor

/-- The program is its host operations followed by the region. -/
theorem main_upto_region (𝒱₀ : Variants) :
    Pipeline.HMain (Ix := Unit) (Name := ℕ) (U := UR sig nD τ) (Lvl := ℕ) cfgs 0 defs₀ 𝒱₀ m (main (F := F)) (atEntry m) :=
  Pipeline.hmain_prefix cfgs 0 defs₀ 𝒱₀ m main hostOps0 hostOps0_sub hostOps0_fresh main_chain

/-- The host operations write only the four fused arrays, so an argument array is found as launched. -/
theorem atEntry_of_not_written (c : Dev nD) (b : Ref sig .tc)
    (h0 : b ≠ main_v0) (h1 : b ≠ main_v1) (h2 : b ≠ main_v2) (h3 : b ≠ main_v3) :
    atEntry m c b = m ((c : Thread nD τ).loc b) :=
  StableHlo.after_of_forall_not_mem (b := Proc.devRef .tc b) _ _ (List.forall_iff_forall_mem.mp (by
    simp only [hostOps0, List.Forall, StableHlo.unary_writes, StableHlo.nary_writes, StableHlo.reshape_writes,
      Finset.mem_singleton]
    exact ⟨StableHlo.devRef_ne_of_ne h0, StableHlo.devRef_ne_of_ne h1, StableHlo.devRef_ne_of_ne h2,
      StableHlo.devRef_ne_of_ne h3⟩))

theorem atEntry_arg0 (c : Dev nD) : atEntry m c main_arg0 = m ((c : Thread nD τ).loc main_arg0) :=
  atEntry_of_not_written m c _ (by decide) (by decide) (by decide) (by decide)
theorem atEntry_arg1 (c : Dev nD) : atEntry m c main_arg1 = m ((c : Thread nD τ).loc main_arg1) :=
  atEntry_of_not_written m c _ (by decide) (by decide) (by decide) (by decide)
theorem atEntry_arg2 (c : Dev nD) : atEntry m c main_arg2 = m ((c : Thread nD τ).loc main_arg2) :=
  atEntry_of_not_written m c _ (by decide) (by decide) (by decide) (by decide)
theorem atEntry_arg3 (c : Dev nD) : atEntry m c main_arg3 = m ((c : Thread nD τ).loc main_arg3) :=
  atEntry_of_not_written m c _ (by decide) (by decide) (by decide) (by decide)
theorem atEntry_arg4 (c : Dev nD) : atEntry m c main_arg4 = m ((c : Thread nD τ).loc main_arg4) :=
  atEntry_of_not_written m c _ (by decide) (by decide) (by decide) (by decide)
theorem atEntry_arg5 (c : Dev nD) : atEntry m c main_arg5 = m ((c : Thread nD τ).loc main_arg5) :=
  atEntry_of_not_written m c _ (by decide) (by decide) (by decide) (by decide)
theorem atEntry_arg6 (c : Dev nD) : atEntry m c main_arg6 = m ((c : Thread nD τ).loc main_arg6) :=
  atEntry_of_not_written m c _ (by decide) (by decide) (by decide) (by decide)
theorem atEntry_arg7 (c : Dev nD) : atEntry m c main_arg7 = m ((c : Thread nD τ).loc main_arg7) :=
  atEntry_of_not_written m c _ (by decide) (by decide) (by decide) (by decide)
theorem atEntry_arg8 (c : Dev nD) : atEntry m c main_arg8 = m ((c : Thread nD τ).loc main_arg8) :=
  atEntry_of_not_written m c _ (by decide) (by decide) (by decide) (by decide)
theorem atEntry_arg9 (c : Dev nD) : atEntry m c main_arg9 = m ((c : Thread nD τ).loc main_arg9) :=
  atEntry_of_not_written m c _ (by decide) (by decide) (by decide) (by decide)
theorem atEntry_arg10 (c : Dev nD) : atEntry m c main_arg10 = m ((c : Thread nD τ).loc main_arg10) :=
  atEntry_of_not_written m c _ (by decide) (by decide) (by decide) (by decide)

/-! ## A window's block -/

/-- The block of window w at grid point t, read off the window's array as the region found it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

section Found
variable {c : Dev nD} (dat : Dat τ (Elt F) Unit ℕ (UR sig nD τ) ℕ cfg0 c)

/-- An input window's current staging buffer holds its block at every grid point, whether the pipeline fetched it there
    or kept it from the point before (then the block index did not move): x rows, -/
theorem found0_of (hA : dat.A 0 = atEntry m c (Pipeline.arrRef spec0 0)) (hafter : ∀ t, dat.after 0 t = blockAt m c 0 t)
    (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- h rows, -/
theorem found1_of (hA : dat.A 1 = atEntry m c (Pipeline.arrRef spec0 1)) (hafter : ∀ t, dat.after 1 t = blockAt m c 1 t)
    (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
/-- c rows, -/
theorem found2_of (hA : dat.A 2 = atEntry m c (Pipeline.arrRef spec0 2)) (hafter : ∀ t, dat.after 2 t = blockAt m c 2 t)
    (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
/-- the weight matrix (fetched once, kept afterwards), -/
theorem found3_of (hA : dat.A 3 = atEntry m c (Pipeline.arrRef spec0 3)) (hafter : ∀ t, dat.after 3 t = blockAt m c 3 t)
    (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
/-- the bias row (fetched once, kept afterwards). -/
theorem found4_of (hA : dat.A 4 = atEntry m c (Pipeline.arrRef spec0 4)) (hafter : ∀ t, dat.after 4 t = blockAt m c 4 t)
    (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
end Found

/-! ## What the body stores -/

/-- The body reads and writes every staging buffer whole. -/
abbrev wholeRows : Rect S256x1024 := Rect.unit (s := S256x1024) ![0, 0] S256x1024.size inb_S256x1024_S256x1024_0_0
abbrev wholeWeights : Rect S2048x4096 := Rect.unit (s := S2048x4096) ![0, 0] S2048x4096.size inb_S2048x4096_S2048x4096_0_0
abbrev wholeBias : Rect S1x4096 := Rect.unit (s := S1x4096) ![0, 0] S1x4096.size inb_S1x4096_S1x4096_0_0

/-- The new hidden state's block: what the body leaves in result window 5, from the five input blocks. -/
def leftHidden (x0 x1 x2 : Vec F S256x1024 .f32) (x3 : Vec F S2048x4096 .bf16) (x4 : Vec F S1x4096 .f32) : Vec F S256x1024 .f32 :=
  View.canon [⟨wholeRows, k0_pay3 (View.ld x0 wholeRows) (View.ld x1 wholeRows) (View.ld x3 wholeWeights) (View.ld x4 wholeBias) (View.ld x2 wholeRows)⟩]

/-- The new cell state's block: what the body leaves in result window 6. -/
def leftCell (x0 x1 x2 : Vec F S256x1024 .f32) (x3 : Vec F S2048x4096 .bf16) (x4 : Vec F S1x4096 .f32) : Vec F S256x1024 .f32 :=
  View.canon [⟨wholeRows, k0_pay2 (View.ld x0 wholeRows) (View.ld x1 wholeRows) (View.ld x3 wholeWeights) (View.ld x4 wholeBias) (View.ld x2 wholeRows)⟩]

/-- One whole-buffer store covers the buffer. -/
theorem rows_covered (p0 : Vec F S256x1024 .f32) (y : S256x1024.Idx) :
    ∃ pc ∈ ([⟨wholeRows, p0⟩] : List (View.Piece (Elt F) S256x1024 .f32)), y ∈ pc.1.set :=
  View.cover_of_tiled [⟨wholeRows, p0⟩] S256x1024.size (by rfl) y

/-! ## The body, once -/

set_option maxHeartbeats 1000000 in
/-- On whole staging buffers — the five inputs at known contents, the two results at anything — the body runs to the
    end, leaves the inputs as they were and the results at the two stored values. -/
theorem body_triple (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S2048x4096 .bf16) (harg4 : arg4.IsWhole)
    (arg5 : Memref sig .tc .vmem S1x4096 .f32) (harg5 : arg5.IsWhole) (arg6 : Memref sig .tc .vmem S256x1024 .f32) (harg6 : arg6.IsWhole)
    (arg7 : Memref sig .tc .vmem S256x1024 .f32) (harg7 : arg7.IsWhole)
    (x0 x1 x2 : Vec F S256x1024 .f32) (x3 : Vec F S2048x4096 .bf16) (x4 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (leftHidden x0 x1 x2 x3 x4)
            ∗ owns (c : Thread nD τ) arg7 fullShare (leftCell x0 x1 x2 x3 x4)) -∗ K ⟨⟩))
      ⊢ wp frame (wpE (defs₀ (F := F)) Variants.none c none) E
          (cc0__lstm_kernel i arg1 harg1 arg2 harg2 arg3 harg3 arg4 harg4 arg5 harg5 arg6 harg6 arg7 harg7) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (rows_covered _)
  iexists _; isplitr
  swap; · iexact H6
  ipureintro
  exact View.read_writes_eq_canon _ _ _ (rows_covered _)

/-! ## The pipeline's bookkeeping -/

/-- Per core: the arrays as the region found them; after the body at point t each input buffer still at its block and
    each result buffer at the stored value of the five input blocks; nothing kept between points. -/
def runData (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => leftHidden (blockAt m c 0 t) (blockAt m c 1 t) (blockAt m c 2 t) (blockAt m c 3 t) (blockAt m c 4 t)
    | ⟨6, _⟩ => leftCell (blockAt m c 0 t) (blockAt m c 1 t) (blockAt m c 2 t) (blockAt m c 3 t) (blockAt m c 4 t)
  Φ _ := Pipeline.ΦA spec0 c
  q _ := fullShare
  owed _ := 0

theorem arrays_eq (c : Dev nD) (w : Fin cfg0.W) : (runData m 0 c).A w = atEntry m c (Pipeline.arrRef spec0 w) := by
  dsimp only [runData]

theorem after_0 (c : Dev nD) (t : Fin cfg0.N) : (runData m 0 c).after 0 t = blockAt m c 0 t := by dsimp only [runData]
theorem after_1 (c : Dev nD) (t : Fin cfg0.N) : (runData m 0 c).after 1 t = blockAt m c 1 t := by dsimp only [runData]
theorem after_2 (c : Dev nD) (t : Fin cfg0.N) : (runData m 0 c).after 2 t = blockAt m c 2 t := by dsimp only [runData]
theorem after_3 (c : Dev nD) (t : Fin cfg0.N) : (runData m 0 c).after 3 t = blockAt m c 3 t := by dsimp only [runData]
theorem after_4 (c : Dev nD) (t : Fin cfg0.N) : (runData m 0 c).after 4 t = blockAt m c 4 t := by dsimp only [runData]
theorem after_5 (c : Dev nD) (t : Fin cfg0.N) : (runData m 0 c).after 5 t
    = leftHidden (blockAt m c 0 t) (blockAt m c 1 t) (blockAt m c 2 t) (blockAt m c 3 t) (blockAt m c 4 t) := by dsimp only [runData]
theorem after_6 (c : Dev nD) (t : Fin cfg0.N) : (runData m 0 c).after 6 t
    = leftCell (blockAt m c 0 t) (blockAt m c 1 t) (blockAt m c 2 t) (blockAt m c 3 t) (blockAt m c 4 t) := by dsimp only [runData]

theorem found_0 (c : Dev nD) (t : Fin cfg0.N) (d) : (runData m 0 c).before 0 t d = blockAt m c 0 t :=
  found0_of m (runData m 0 c) (arrays_eq m c 0) (after_0 m c) t d
theorem found_1 (c : Dev nD) (t : Fin cfg0.N) (d) : (runData m 0 c).before 1 t d = blockAt m c 1 t :=
  found1_of m (runData m 0 c) (arrays_eq m c 1) (after_1 m c) t d
theorem found_2 (c : Dev nD) (t : Fin cfg0.N) (d) : (runData m 0 c).before 2 t d = blockAt m c 2 t :=
  found2_of m (runData m 0 c) (arrays_eq m c 2) (after_2 m c) t d
theorem found_3 (c : Dev nD) (t : Fin cfg0.N) (d) : (runData m 0 c).before 3 t d = blockAt m c 3 t :=
  found3_of m (runData m 0 c) (arrays_eq m c 3) (after_3 m c) t d
theorem found_4 (c : Dev nD) (t : Fin cfg0.N) (d) : (runData m 0 c).before 4 t d = blockAt m c 4 t :=
  found4_of m (runData m 0 c) (arrays_eq m c 4) (after_4 m c) t d

/-! ## The body at a grid point -/

def bodyGiven (c : Dev nD) (t : Fin cfg0.N) : sProp 𝕄 :=
  iprop((runData m 0 c).Φ t.castSucc ∗ (runData m 0 c).owesAt () t.castSucc
    ∗ (∃ d, owns (c : Thread nD τ) (st0_0 t) fullShare ((runData m 0 c).before 0 t d))
    ∗ (∃ d, owns (c : Thread nD τ) (st0_1 t) fullShare ((runData m 0 c).before 1 t d))
    ∗ (∃ d, owns (c : Thread nD τ) (st0_2 t) fullShare ((runData m 0 c).before 2 t d))
    ∗ (∃ d, owns (c : Thread nD τ) (st0_3 t) fullShare ((runData m 0 c).before 3 t d))
    ∗ (∃ d, owns (c : Thread nD τ) (st0_4 t) fullShare ((runData m 0 c).before 4 t d))
    ∗ (∃ d, owns (c : Thread nD τ) (st0_5 t) fullShare ((runData m 0 c).before 5 t d))
    ∗ (∃ d, owns (c : Thread nD τ) (st0_6 t) fullShare ((runData m 0 c).before 6 t d)))

def bodyReturns (c : Dev nD) (t : Fin cfg0.N) : sProp 𝕄 :=
  iprop((runData m 0 c).Φ t.succ ∗ (runData m 0 c).owesAt () t.succ
    ∗ owns (c : Thread nD τ) (st0_0 t) fullShare ((runData m 0 c).after 0 t)
    ∗ owns (c : Thread nD τ) (st0_1 t) fullShare ((runData m 0 c).after 1 t)
    ∗ owns (c : Thread nD τ) (st0_2 t) fullShare ((runData m 0 c).after 2 t)
    ∗ owns (c : Thread nD τ) (st0_3 t) fullShare ((runData m 0 c).after 3 t)
    ∗ owns (c : Thread nD τ) (st0_4 t) fullShare ((runData m 0 c).after 4 t)
    ∗ owns (c : Thread nD τ) (st0_5 t) fullShare ((runData m 0 c).after 5 t)
    ∗ owns (c : Thread nD τ) (st0_6 t) fullShare ((runData m 0 c).after 6 t))

/-- At any grid point the input buffers hold their blocks, so the one run of the body applies. -/
theorem body_at (c : Dev nD) (t : Fin cfg0.N) :
    bodyGiven m c t ⊢ wp frame (wpE (defs₀ (F := F)) Variants.none c none) Set.univ (bodyAt0 t) (fun _ => bodyReturns m c t) := by
  unfold bodyGiven bodyReturns bodyAt0
  simp only [found_0, found_1, found_2, found_3, found_4]
  rw [show (runData m 0 c).Φ t.succ = (runData m 0 c).Φ t.castSucc from rfl,
    show (runData m 0 c).owesAt () t.succ = (runData m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_triple c Set.univ (grid0.coords t) _ _ _ _ _ _ _ _ _ _ _ _ _ _
    (blockAt m c 0 t) (blockAt m c 1 t) (blockAt m c 2 t) (blockAt m c 3 t) (blockAt m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_everywhere (c : Dev nD) : BodyObligation (runData (F := F) m 0 c) (defs₀ (F := F)) Variants.none () Set.univ := fun t => by
  rw [bigSep_W0, bigSep_W0]
  exact body_at m c t

/-! ## The run -/

set_option backward.isDefEq.respectTransparency.types false in
/-- Every weakly fair execution of the program ends without a fault; each window's array then holds what the
    write-backs assembled, and every other array what the region found. -/
theorem run_main : θ_run defs (onTc (τ := τ) (main (F := F))) (s₀ m ρ) (Pipeline.FramePost cfgs (runData m) 0 (atEntry m)) :=
  Pipeline.θ_run_frame cfgs (runData m) (0 : Fin 1) launch0 defs₀ Variants.none m ρ main
    (hbody := fun c => (body_everywhere m c).loose) (hshare := fun c => (runData m 0 c).share_full fun _ => rfl)
    (howed := fun _ _ => rfl) (V := atEntry m) (hmain := main_upto_region m Variants.none) (hA := arrays_eq m) (hΦ := fun _ _ => rfl)

/-- Read off the run's final state: the eleven argument arrays are as launched. x, h and c are input windows (never
    written back), the gate matrices and biases are no window's array, and the host operations write none of them. -/
theorem kept_of_post (r : PUnit × MemSt nD τ sig (Elt F)) (h : Pipeline.FramePost cfgs (runData m) 0 (atEntry m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
    ⟨((h c).1 0).trans (((runData m 0 c).arrAt_in 0 rfl _).trans ((arrays_eq m c 0).trans (atEntry_arg0 m c))),
     ((h c).1 1).trans (((runData m 0 c).arrAt_in 1 rfl _).trans ((arrays_eq m c 1).trans (atEntry_arg1 m c))),
     ((h c).1 2).trans (((runData m 0 c).arrAt_in 2 rfl _).trans ((arrays_eq m c 2).trans (atEntry_arg2 m c))),
     ((h c).2 main_arg3 (Pipeline.mem_restRefs_of main_arg3 (by decide) (by decide))).trans (atEntry_arg3 m c),
     ((h c).2 main_arg4 (Pipeline.mem_restRefs_of main_arg4 (by decide) (by decide))).trans (atEntry_arg4 m c),
     ((h c).2 main_arg5 (Pipeline.mem_restRefs_of main_arg5 (by decide) (by decide))).trans (atEntry_arg5 m c),
     ((h c).2 main_arg6 (Pipeline.mem_restRefs_of main_arg6 (by decide) (by decide))).trans (atEntry_arg6 m c),
     ((h c).2 main_arg7 (Pipeline.mem_restRefs_of main_arg7 (by decide) (by decide))).trans (atEntry_arg7 m c),
     ((h c).2 main_arg8 (Pipeline.mem_restRefs_of main_arg8 (by decide) (by decide))).trans (atEntry_arg8 m c),
     ((h c).2 main_arg9 (Pipeline.mem_restRefs_of main_arg9 (by decide) (by decide))).trans (atEntry_arg9 m c),
     ((h c).2 main_arg10 (Pipeline.mem_restRefs_of main_arg10 (by decide) (by decide))).trans (atEntry_arg10 m c)⟩

/-- So every execution ends with the eleven argument arrays as they started. -/
theorem args_kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => kept_of_post m r h c) (run_main m ρ)

end Cert.Kernel.Region

end
-- ==== Proof.RegionIdeal.lean ====
/-
  The run of the one pipelined region of this program, for any float instance.

  The program first builds, on the host, the fused weight matrix (the four gate matrices side by side, narrowed to
  bf16) and the fused bias row (the four gate biases end to end, as one row); then one pipelined region walks the 32
  row blocks of the batch. At block t the body reads rows [256 t, 256 t + 256) of x, h and c, the whole weight matrix
  and the whole bias row, and writes rows [256 t, 256 t + 256) of the two results. Nothing else is touched.

  This module says what each staging buffer holds around the body (the inputs: the block of the array as the region
  found it; the outputs: the body's two stored values as functions of the input blocks), runs the body once at a
  symbolic block, and concludes that every execution of the program ends, with each result array assembled from the
  blocks written back and every other array as the region found it. The eleven argument arrays are not written by the
  host prefix either, so they end as they started.
-/
import proofs.«118580_j32933809225810_1_alg».proof.Proof.Gen.KernelIdeal.Launch
import proofs.«118580_j32933809225810_1_alg».proof.Proof.Gen.KernelIdeal.Skeleton
import proofs.«118580_j32933809225810_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered -/

/-- Core c's arrays after the four host operations: the fused weights, their bf16 narrowing, the fused bias and its
    one-row form have been written; everything else is as launched. -/
abbrev atEntry (c : Dev nD) (b : Ref sig .tc) : Buf (Elt F) ((c : Thread nD τ).loc b) :=
  StableHlo.after hostOps0 (fun b => m (c, b)) b

/-- None of the four host operations allocates anything. -/
theorem hostOps0_fresh : (hostOps0 : List (HloOp τ sig (Elt F))).Forall fun op => op.fresh = ∅ := by
  simp only [List.Forall]; repeat' constructor

/-- The program is its host operations followed by the region. -/
theorem main_upto_region (𝒱₀ : Variants) :
    Pipeline.HMain (Ix := Unit) (Name := ℕ) (U := UR sig nD τ) (Lvl := ℕ) cfgs 0 defs₀ 𝒱₀ m (main (F := F)) (atEntry m) :=
  Pipeline.hmain_prefix cfgs 0 defs₀ 𝒱₀ m main hostOps0 hostOps0_sub hostOps0_fresh main_chain

/-- The host operations write only the four fused arrays, so an argument array is found as launched. -/
theorem atEntry_of_not_written (c : Dev nD) (b : Ref sig .tc)
    (h0 : b ≠ main_v0) (h1 : b ≠ main_v1) (h2 : b ≠ main_v2) (h3 : b ≠ main_v3) :
    atEntry m c b = m ((c : Thread nD τ).loc b) :=
  StableHlo.after_of_forall_not_mem (b := Proc.devRef .tc b) _ _ (List.forall_iff_forall_mem.mp (by
    simp only [hostOps0, List.Forall, StableHlo.unary_writes, StableHlo.nary_writes, StableHlo.reshape_writes,
      Finset.mem_singleton]
    exact ⟨StableHlo.devRef_ne_of_ne h0, StableHlo.devRef_ne_of_ne h1, StableHlo.devRef_ne_of_ne h2,
      StableHlo.devRef_ne_of_ne h3⟩))

theorem atEntry_arg0 (c : Dev nD) : atEntry m c main_arg0 = m ((c : Thread nD τ).loc main_arg0) :=
  atEntry_of_not_written m c _ (by decide) (by decide) (by decide) (by decide)
theorem atEntry_arg1 (c : Dev nD) : atEntry m c main_arg1 = m ((c : Thread nD τ).loc main_arg1) :=
  atEntry_of_not_written m c _ (by decide) (by decide) (by decide) (by decide)
theorem atEntry_arg2 (c : Dev nD) : atEntry m c main_arg2 = m ((c : Thread nD τ).loc main_arg2) :=
  atEntry_of_not_written m c _ (by decide) (by decide) (by decide) (by decide)
theorem atEntry_arg3 (c : Dev nD) : atEntry m c main_arg3 = m ((c : Thread nD τ).loc main_arg3) :=
  atEntry_of_not_written m c _ (by decide) (by decide) (by decide) (by decide)
theorem atEntry_arg4 (c : Dev nD) : atEntry m c main_arg4 = m ((c : Thread nD τ).loc main_arg4) :=
  atEntry_of_not_written m c _ (by decide) (by decide) (by decide) (by decide)
theorem atEntry_arg5 (c : Dev nD) : atEntry m c main_arg5 = m ((c : Thread nD τ).loc main_arg5) :=
  atEntry_of_not_written m c _ (by decide) (by decide) (by decide) (by decide)
theorem atEntry_arg6 (c : Dev nD) : atEntry m c main_arg6 = m ((c : Thread nD τ).loc main_arg6) :=
  atEntry_of_not_written m c _ (by decide) (by decide) (by decide) (by decide)
theorem atEntry_arg7 (c : Dev nD) : atEntry m c main_arg7 = m ((c : Thread nD τ).loc main_arg7) :=
  atEntry_of_not_written m c _ (by decide) (by decide) (by decide) (by decide)
theorem atEntry_arg8 (c : Dev nD) : atEntry m c main_arg8 = m ((c : Thread nD τ).loc main_arg8) :=
  atEntry_of_not_written m c _ (by decide) (by decide) (by decide) (by decide)
theorem atEntry_arg9 (c : Dev nD) : atEntry m c main_arg9 = m ((c : Thread nD τ).loc main_arg9) :=
  atEntry_of_not_written m c _ (by decide) (by decide) (by decide) (by decide)
theorem atEntry_arg10 (c : Dev nD) : atEntry m c main_arg10 = m ((c : Thread nD τ).loc main_arg10) :=
  atEntry_of_not_written m c _ (by decide) (by decide) (by decide) (by decide)

/-! ## A window's block -/

/-- The block of window w at grid point t, read off the window's array as the region found it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

section Found
variable {c : Dev nD} (dat : Dat τ (Elt F) Unit ℕ (UR sig nD τ) ℕ cfg0 c)

/-- An input window's current staging buffer holds its block at every grid point, whether the pipeline fetched it there
    or kept it from the point before (then the block index did not move): x rows, -/
theorem found0_of (hA : dat.A 0 = atEntry m c (Pipeline.arrRef spec0 0)) (hafter : ∀ t, dat.after 0 t = blockAt m c 0 t)
    (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- h rows, -/
theorem found1_of (hA : dat.A 1 = atEntry m c (Pipeline.arrRef spec0 1)) (hafter : ∀ t, dat.after 1 t = blockAt m c 1 t)
    (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
/-- c rows, -/
theorem found2_of (hA : dat.A 2 = atEntry m c (Pipeline.arrRef spec0 2)) (hafter : ∀ t, dat.after 2 t = blockAt m c 2 t)
    (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
/-- the weight matrix (fetched once, kept afterwards), -/
theorem found3_of (hA : dat.A 3 = atEntry m c (Pipeline.arrRef spec0 3)) (hafter : ∀ t, dat.after 3 t = blockAt m c 3 t)
    (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
/-- the bias row (fetched once, kept afterwards). -/
theorem found4_of (hA : dat.A 4 = atEntry m c (Pipeline.arrRef spec0 4)) (hafter : ∀ t, dat.after 4 t = blockAt m c 4 t)
    (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
end Found

/-! ## What the body stores -/

/-- The body reads and writes every staging buffer whole. -/
abbrev wholeRows : Rect S256x1024 := Rect.unit (s := S256x1024) ![0, 0] S256x1024.size inb_S256x1024_S256x1024_0_0
abbrev wholeWeights : Rect S2048x4096 := Rect.unit (s := S2048x4096) ![0, 0] S2048x4096.size inb_S2048x4096_S2048x4096_0_0
abbrev wholeBias : Rect S1x4096 := Rect.unit (s := S1x4096) ![0, 0] S1x4096.size inb_S1x4096_S1x4096_0_0

/-- The new hidden state's block: what the body leaves in result window 5, from the five input blocks. -/
def leftHidden (x0 x1 x2 : Vec F S256x1024 .f32) (x3 : Vec F S2048x4096 .bf16) (x4 : Vec F S1x4096 .f32) : Vec F S256x1024 .f32 :=
  View.canon [⟨wholeRows, k0_pay3 (View.ld x0 wholeRows) (View.ld x1 wholeRows) (View.ld x3 wholeWeights) (View.ld x4 wholeBias) (View.ld x2 wholeRows)⟩]

/-- The new cell state's block: what the body leaves in result window 6. -/
def leftCell (x0 x1 x2 : Vec F S256x1024 .f32) (x3 : Vec F S2048x4096 .bf16) (x4 : Vec F S1x4096 .f32) : Vec F S256x1024 .f32 :=
  View.canon [⟨wholeRows, k0_pay2 (View.ld x0 wholeRows) (View.ld x1 wholeRows) (View.ld x3 wholeWeights) (View.ld x4 wholeBias) (View.ld x2 wholeRows)⟩]

/-- One whole-buffer store covers the buffer. -/
theorem rows_covered (p0 : Vec F S256x1024 .f32) (y : S256x1024.Idx) :
    ∃ pc ∈ ([⟨wholeRows, p0⟩] : List (View.Piece (Elt F) S256x1024 .f32)), y ∈ pc.1.set :=
  View.cover_of_tiled [⟨wholeRows, p0⟩] S256x1024.size (by rfl) y

/-! ## The body, once -/

set_option maxHeartbeats 1000000 in
/-- On whole staging buffers — the five inputs at known contents, the two results at anything — the body runs to the
    end, leaves the inputs as they were and the results at the two stored values. -/
theorem body_triple (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S2048x4096 .bf16) (harg4 : arg4.IsWhole)
    (arg5 : Memref sig .tc .vmem S1x4096 .f32) (harg5 : arg5.IsWhole) (arg6 : Memref sig .tc .vmem S256x1024 .f32) (harg6 : arg6.IsWhole)
    (arg7 : Memref sig .tc .vmem S256x1024 .f32) (harg7 : arg7.IsWhole)
    (x0 x1 x2 : Vec F S256x1024 .f32) (x3 : Vec F S2048x4096 .bf16) (x4 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (leftHidden x0 x1 x2 x3 x4)
            ∗ owns (c : Thread nD τ) arg7 fullShare (leftCell x0 x1 x2 x3 x4)) -∗ K ⟨⟩))
      ⊢ wp frame (wpE (defs₀ (F := F)) Variants.none c none) E
          (cc0__lstm_kernel i arg1 harg1 arg2 harg2 arg3 harg3 arg4 harg4 arg5 harg5 arg6 harg6 arg7 harg7) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (rows_covered _)
  iexists _; isplitr
  swap; · iexact H6
  ipureintro
  exact View.read_writes_eq_canon _ _ _ (rows_covered _)

/-! ## The pipeline's bookkeeping -/

/-- Per core: the arrays as the region found them; after the body at point t each input buffer still at its block and
    each result buffer at the stored value of the five input blocks; nothing kept between points. -/
def runData (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => leftHidden (blockAt m c 0 t) (blockAt m c 1 t) (blockAt m c 2 t) (blockAt m c 3 t) (blockAt m c 4 t)
    | ⟨6, _⟩ => leftCell (blockAt m c 0 t) (blockAt m c 1 t) (blockAt m c 2 t) (blockAt m c 3 t) (blockAt m c 4 t)
  Φ _ := Pipeline.ΦA spec0 c
  q _ := fullShare
  owed _ := 0

theorem arrays_eq (c : Dev nD) (w : Fin cfg0.W) : (runData m 0 c).A w = atEntry m c (Pipeline.arrRef spec0 w) := by
  dsimp only [runData]

theorem after_0 (c : Dev nD) (t : Fin cfg0.N) : (runData m 0 c).after 0 t = blockAt m c 0 t := by dsimp only [runData]
theorem after_1 (c : Dev nD) (t : Fin cfg0.N) : (runData m 0 c).after 1 t = blockAt m c 1 t := by dsimp only [runData]
theorem after_2 (c : Dev nD) (t : Fin cfg0.N) : (runData m 0 c).after 2 t = blockAt m c 2 t := by dsimp only [runData]
theorem after_3 (c : Dev nD) (t : Fin cfg0.N) : (runData m 0 c).after 3 t = blockAt m c 3 t := by dsimp only [runData]
theorem after_4 (c : Dev nD) (t : Fin cfg0.N) : (runData m 0 c).after 4 t = blockAt m c 4 t := by dsimp only [runData]
theorem after_5 (c : Dev nD) (t : Fin cfg0.N) : (runData m 0 c).after 5 t
    = leftHidden (blockAt m c 0 t) (blockAt m c 1 t) (blockAt m c 2 t) (blockAt m c 3 t) (blockAt m c 4 t) := by dsimp only [runData]
theorem after_6 (c : Dev nD) (t : Fin cfg0.N) : (runData m 0 c).after 6 t
    = leftCell (blockAt m c 0 t) (blockAt m c 1 t) (blockAt m c 2 t) (blockAt m c 3 t) (blockAt m c 4 t) := by dsimp only [runData]

theorem found_0 (c : Dev nD) (t : Fin cfg0.N) (d) : (runData m 0 c).before 0 t d = blockAt m c 0 t :=
  found0_of m (runData m 0 c) (arrays_eq m c 0) (after_0 m c) t d
theorem found_1 (c : Dev nD) (t : Fin cfg0.N) (d) : (runData m 0 c).before 1 t d = blockAt m c 1 t :=
  found1_of m (runData m 0 c) (arrays_eq m c 1) (after_1 m c) t d
theorem found_2 (c : Dev nD) (t : Fin cfg0.N) (d) : (runData m 0 c).before 2 t d = blockAt m c 2 t :=
  found2_of m (runData m 0 c) (arrays_eq m c 2) (after_2 m c) t d
theorem found_3 (c : Dev nD) (t : Fin cfg0.N) (d) : (runData m 0 c).before 3 t d = blockAt m c 3 t :=
  found3_of m (runData m 0 c) (arrays_eq m c 3) (after_3 m c) t d
theorem found_4 (c : Dev nD) (t : Fin cfg0.N) (d) : (runData m 0 c).before 4 t d = blockAt m c 4 t :=
  found4_of m (runData m 0 c) (arrays_eq m c 4) (after_4 m c) t d

/-! ## The body at a grid point -/

def bodyGiven (c : Dev nD) (t : Fin cfg0.N) : sProp 𝕄 :=
  iprop((runData m 0 c).Φ t.castSucc ∗ (runData m 0 c).owesAt () t.castSucc
    ∗ (∃ d, owns (c : Thread nD τ) (st0_0 t) fullShare ((runData m 0 c).before 0 t d))
    ∗ (∃ d, owns (c : Thread nD τ) (st0_1 t) fullShare ((runData m 0 c).before 1 t d))
    ∗ (∃ d, owns (c : Thread nD τ) (st0_2 t) fullShare ((runData m 0 c).before 2 t d))
    ∗ (∃ d, owns (c : Thread nD τ) (st0_3 t) fullShare ((runData m 0 c).before 3 t d))
    ∗ (∃ d, owns (c : Thread nD τ) (st0_4 t) fullShare ((runData m 0 c).before 4 t d))
    ∗ (∃ d, owns (c : Thread nD τ) (st0_5 t) fullShare ((runData m 0 c).before 5 t d))
    ∗ (∃ d, owns (c : Thread nD τ) (st0_6 t) fullShare ((runData m 0 c).before 6 t d)))

def bodyReturns (c : Dev nD) (t : Fin cfg0.N) : sProp 𝕄 :=
  iprop((runData m 0 c).Φ t.succ ∗ (runData m 0 c).owesAt () t.succ
    ∗ owns (c : Thread nD τ) (st0_0 t) fullShare ((runData m 0 c).after 0 t)
    ∗ owns (c : Thread nD τ) (st0_1 t) fullShare ((runData m 0 c).after 1 t)
    ∗ owns (c : Thread nD τ) (st0_2 t) fullShare ((runData m 0 c).after 2 t)
    ∗ owns (c : Thread nD τ) (st0_3 t) fullShare ((runData m 0 c).after 3 t)
    ∗ owns (c : Thread nD τ) (st0_4 t) fullShare ((runData m 0 c).after 4 t)
    ∗ owns (c : Thread nD τ) (st0_5 t) fullShare ((runData m 0 c).after 5 t)
    ∗ owns (c : Thread nD τ) (st0_6 t) fullShare ((runData m 0 c).after 6 t))

/-- At any grid point the input buffers hold their blocks, so the one run of the body applies. -/
theorem body_at (c : Dev nD) (t : Fin cfg0.N) :
    bodyGiven m c t ⊢ wp frame (wpE (defs₀ (F := F)) Variants.none c none) Set.univ (bodyAt0 t) (fun _ => bodyReturns m c t) := by
  unfold bodyGiven bodyReturns bodyAt0
  simp only [found_0, found_1, found_2, found_3, found_4]
  rw [show (runData m 0 c).Φ t.succ = (runData m 0 c).Φ t.castSucc from rfl,
    show (runData m 0 c).owesAt () t.succ = (runData m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_triple c Set.univ (grid0.coords t) _ _ _ _ _ _ _ _ _ _ _ _ _ _
    (blockAt m c 0 t) (blockAt m c 1 t) (blockAt m c 2 t) (blockAt m c 3 t) (blockAt m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_everywhere (c : Dev nD) : BodyObligation (runData (F := F) m 0 c) (defs₀ (F := F)) Variants.none () Set.univ := fun t => by
  rw [bigSep_W0, bigSep_W0]
  exact body_at m c t

/-! ## The run -/

set_option backward.isDefEq.respectTransparency.types false in
/-- Every weakly fair execution of the program ends without a fault; each window's array then holds what the
    write-backs assembled, and every other array what the region found. -/
theorem run_main : θ_run defs (onTc (τ := τ) (main (F := F))) (s₀ m ρ) (Pipeline.FramePost cfgs (runData m) 0 (atEntry m)) :=
  Pipeline.θ_run_frame cfgs (runData m) (0 : Fin 1) launch0 defs₀ Variants.none m ρ main
    (hbody := fun c => (body_everywhere m c).loose) (hshare := fun c => (runData m 0 c).share_full fun _ => rfl)
    (howed := fun _ _ => rfl) (V := atEntry m) (hmain := main_upto_region m Variants.none) (hA := arrays_eq m) (hΦ := fun _ _ => rfl)

/-- Read off the run's final state: the eleven argument arrays are as launched. x, h and c are input windows (never
    written back), the gate matrices and biases are no window's array, and the host operations write none of them. -/
theorem kept_of_post (r : PUnit × MemSt nD τ sig (Elt F)) (h : Pipeline.FramePost cfgs (runData m) 0 (atEntry m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
    ⟨((h c).1 0).trans (((runData m 0 c).arrAt_in 0 rfl _).trans ((arrays_eq m c 0).trans (atEntry_arg0 m c))),
     ((h c).1 1).trans (((runData m 0 c).arrAt_in 1 rfl _).trans ((arrays_eq m c 1).trans (atEntry_arg1 m c))),
     ((h c).1 2).trans (((runData m 0 c).arrAt_in 2 rfl _).trans ((arrays_eq m c 2).trans (atEntry_arg2 m c))),
     ((h c).2 main_arg3 (Pipeline.mem_restRefs_of main_arg3 (by decide) (by decide))).trans (atEntry_arg3 m c),
     ((h c).2 main_arg4 (Pipeline.mem_restRefs_of main_arg4 (by decide) (by decide))).trans (atEntry_arg4 m c),
     ((h c).2 main_arg5 (Pipeline.mem_restRefs_of main_arg5 (by decide) (by decide))).trans (atEntry_arg5 m c),
     ((h c).2 main_arg6 (Pipeline.mem_restRefs_of main_arg6 (by decide) (by decide))).trans (atEntry_arg6 m c),
     ((h c).2 main_arg7 (Pipeline.mem_restRefs_of main_arg7 (by decide) (by decide))).trans (atEntry_arg7 m c),
     ((h c).2 main_arg8 (Pipeline.mem_restRefs_of main_arg8 (by decide) (by decide))).trans (atEntry_arg8 m c),
     ((h c).2 main_arg9 (Pipeline.mem_restRefs_of main_arg9 (by decide) (by decide))).trans (atEntry_arg9 m c),
     ((h c).2 main_arg10 (Pipeline.mem_restRefs_of main_arg10 (by decide) (by decide))).trans (atEntry_arg10 m c)⟩

/-- So every execution ends with the eleven argument arrays as they started. -/
theorem args_kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => kept_of_post m r h c) (run_main m ρ)

end Cert.KernelIdeal.Region

end
-- ==== Proof.CellSpec.lean ====
/-
  The LSTM cell, entry by entry, over the extended reals.

  X is the batch of joined inputs (row p is x_p followed by h_p, 2048 numbers), W the four gate matrices side by side
  (2048 by 4096: input, forget, candidate and output gates in that order, 1024 columns each), b the four gate biases end
  to end, c the old cell state. For row p and column q:

    gate p j  = (sum over k of X(p,k) * W(k,j)) + b(j)
    cell p q  = sigmoid(gate p (1024+q)) * c(p,q) + sigmoid(gate p q) * tanh(gate p (2048+q))
    hidden p q = sigmoid(gate p (3072+q)) * tanh(cell p q)

  with sigmoid x = 1 / (1 + e^(-x)) and tanh extended to the infinities as the library does. Nothing here needs the
  inputs to be finite: both programs are compared term by term, never rearranged.
-/
import Idealize.ShloMosaic.PureOps.Ideal
import Idealize.ShloMosaic.Lib.ValueIdx

noncomputable section

namespace Cert.CellSpec

open Idealize.ShloMosaic Idealize.ShloMosaic.ValueIdx

abbrev Rows : Shape := ⟨2, ![8192, 1024]⟩
abbrev Joined : Shape := ⟨2, ![8192, 2048]⟩
abbrev Weights : Shape := ⟨2, ![2048, 4096]⟩
abbrev Biases : Shape := ⟨1, ![4096]⟩

/-- Column q of the gate whose columns start at offset o. -/
abbrev col (o : Nat) (ho : o + 1024 ≤ 4096) (q : Fin 1024) : Fin 4096 := ⟨o + q.val, by have := q.isLt; omega⟩

/-- One pre-activation: row p of X against column j of W, plus the bias. -/
def gate (X : Joined.Idx → EReal) (W : Weights.Idx → EReal) (b : Biases.Idx → EReal) (p : Fin 8192) (j : Fin 4096) : EReal :=
  (∑ k : Fin 2048, X (ix2 p k) * W (ix2 k j)) + b (ix1 j)

/-- The new cell state at (p, q): forget gate times old cell, plus input gate times candidate. -/
def cellAt (X : Joined.Idx → EReal) (W : Weights.Idx → EReal) (b : Biases.Idx → EReal) (c : Rows.Idx → EReal)
    (p : Fin 8192) (q : Fin 1024) : EReal :=
  Ideal.logistic (gate X W b p (col 1024 (by norm_num) q)) * c (ix2 p q)
    + Ideal.logistic (gate X W b p (col 0 (by norm_num) q)) * Ideal.tanh (gate X W b p (col 2048 (by norm_num) q))

/-- The new hidden state at (p, q): output gate times tanh of the new cell state. -/
def hiddenAt (X : Joined.Idx → EReal) (W : Weights.Idx → EReal) (b : Biases.Idx → EReal) (c : Rows.Idx → EReal)
    (p : Fin 8192) (q : Fin 1024) : EReal :=
  Ideal.logistic (gate X W b p (col 3072 (by norm_num) q)) * Ideal.tanh (cellAt X W b c p q)

/-- The two results as whole arrays. -/
def cellArr (X : Joined.Idx → EReal) (W : Weights.Idx → EReal) (b : Biases.Idx → EReal) (c : Rows.Idx → EReal) : Rows.Idx → EReal :=
  fun i => cellAt X W b c (i 0) (i 1)
def hiddenArr (X : Joined.Idx → EReal) (W : Weights.Idx → EReal) (b : Biases.Idx → EReal) (c : Rows.Idx → EReal) : Rows.Idx → EReal :=
  fun i => hiddenAt X W b c (i 0) (i 1)

/-- The float word 0x3F800000 is the number one. -/
theorem one_word : Ideal.ofBits .f32 0x3F800000#32 = 1 := by
  simp [Ideal.ofBits, Ideal.ieee, -EReal.coe_mul]; norm_num

/-- The sigmoid spelled out with that word, as a host program spells it, is the library's. -/
theorem sigmoid_spelled (x : EReal) :
    Ideal.div (Ideal.ofBits .f32 0x3F800000#32) (Ideal.ofBits .f32 0x3F800000#32 + Ideal.exp (-x)) = Ideal.logistic x := by
  rw [one_word]; rfl

end Cert.CellSpec

end
-- ==== Proof.LibPlainDot.lean ====
/-
  A plain matrix product's contraction sum, re-indexed by the contracted coordinate.

  For a dot of an [n, K] operand with a [K, M] operand into [n, M] that contracts the left operand's axis 1 with the
  right operand's axis 0 and has no batch axes, the sum over the contraction index of left(row i, k) * right(k, column i)
  is the sum over k : Fin K of L (i 0, k) * R (k, i 1): what both a kernel's matrix unit and a host dot_general
  compute at an output index over the extended reals.
-/
import Idealize.ShloMosaic.PureOps.Ideal.Laws
import Idealize.ShloMosaic.Lib.ValueIdx

namespace Cert.LibPlainDot

open Idealize.ShloMosaic Idealize.ShloMosaic.ValueIdx

variable {n K M : Nat}

/-- The dimension numbers of a plain product: contract axis 1 with axis 0, keep axis 0 and axis 1, no batch axes. -/
structure IsPlain (d : DotDims ⟨2, ![n, K]⟩ ⟨2, ![K, M]⟩ ⟨2, ![n, M]⟩) : Prop where
  lc : d.lhsContracting = [1]
  rc : d.rhsContracting = [0]
  ln : d.lhsNonContracting = [0]
  rn : d.rhsNonContracting = [1]
  lb : d.lhsBatch = []
  rb : d.rhsBatch = []

/-- The contraction sum of a plain product at output index `i` is the sum over the contracted coordinate. -/
theorem sum_contr {α : Type} [AddCommMonoid α] (d : DotDims ⟨2, ![n, K]⟩ ⟨2, ![K, M]⟩ ⟨2, ![n, M]⟩) (hd : IsPlain d)
    (f : (⟨2, ![n, K]⟩ : Shape).Idx → (⟨2, ![K, M]⟩ : Shape).Idx → α) (i : (⟨2, ![n, M]⟩ : Shape).Idx) :
    ∑ q : d.contr.Idx, f (d.lhsIdx i q) (d.rhsIdx i q) = ∑ k : Fin K, f (ix2 (i 0) k) (ix2 k (i 1)) := by
  obtain ⟨lc, rc, ln, rn, lb, rb, wf⟩ := d
  obtain ⟨h1, h2, h3, h4, h5, h6⟩ := hd
  simp only at h1 h2 h3 h4 h5 h6
  subst h1 h2 h3 h4 h5 h6
  let d : DotDims ⟨2, ![n, K]⟩ ⟨2, ![K, M]⟩ ⟨2, ![n, M]⟩ := ⟨[1], [0], [0], [1], [], [], wf⟩
  show ∑ q : d.contr.Idx, f (d.lhsIdx i q) (d.rhsIdx i q) = _
  rw [← Equiv.sum_comp (contrEquiv1 d K rfl rfl).symm]
  refine Finset.sum_congr rfl fun k _ => ?_
  have hk := contrEquiv1_symm_val d K rfl rfl k
  have el : d.lhsIdx i ((contrEquiv1 d K rfl rfl).symm k) = ix2 (i 0) k := funext fun a => Fin.ext (by
    match a with
    | ⟨0, _⟩ =>
      show (d.lhsIdx i _ 0).val = (i 0).val
      unfold DotDims.lhsIdx
      rw [dif_neg (show ¬(0 : Fin (⟨2, ![n, K]⟩ : Shape).rank) ∈ d.lhsBatch from List.not_mem_nil),
        dif_pos (show (0 : Fin (⟨2, ![n, K]⟩ : Shape).rank) ∈ d.lhsNonContracting from List.mem_singleton.mpr rfl)]
      rfl
    | ⟨1, _⟩ => exact (d.lhsIdx_val_of_single rfl i _).trans hk)
  have er : d.rhsIdx i ((contrEquiv1 d K rfl rfl).symm k) = ix2 k (i 1) := funext fun a => Fin.ext (by
    match a with
    | ⟨0, _⟩ => exact (d.rhsIdx_val_of_single rfl i _).trans hk
    | ⟨1, _⟩ =>
      show (d.rhsIdx i _ 1).val = (i 1).val
      unfold DotDims.rhsIdx
      rw [dif_neg (show ¬(1 : Fin (⟨2, ![K, M]⟩ : Shape).rank) ∈ d.rhsBatch from List.not_mem_nil),
        dif_pos (show (1 : Fin (⟨2, ![K, M]⟩ : Shape).rank) ∈ d.rhsNonContracting from List.mem_singleton.mpr rfl)]
      rfl)
  rw [el, er]
  try rfl

end Cert.LibPlainDot
-- ==== Proof.LibDotApply.lean ====
/-
  A plain matrix product read at an entry, over the extended reals.

  For an [n, K] operand and a [K, M] operand contracted over K with no batch axes, the kernel's matrix-unit product
  into a zero accumulator and the host's dot_general both read, at entry (p, c), the sum over k : Fin K of
  L (p, k) * R (k, c): there is no rounding and no order of accumulation left in either.
-/
import proofs.«118580_j32933809225810_1_alg».proof.Proof.LibPlainDot
import Idealize.ShloMosaic.PureOps.Ideal.Laws
import Idealize.ShloMosaic.Lib.ValueIdx

noncomputable section

namespace Cert.LibDotApply

open Idealize.ShloMosaic Idealize.ShloMosaic.ValueIdx Cert.LibPlainDot

variable {n K M : Nat} {φ₁ φ₂ : FTy}

/-- A kernel's matrix-unit product of plain dimension numbers into a zero accumulator, at entry (p, c). -/
theorem matmul_zero_apply (d : DotDims ⟨2, ![n, K]⟩ ⟨2, ![K, M]⟩ ⟨2, ![n, M]⟩) (hd : IsPlain d) (prec : Option ContractPrecision)
    (lhs : FVec Ideal ⟨2, ![n, K]⟩ φ₁) (rhs : FVec Ideal ⟨2, ![K, M]⟩ φ₂) (p : Fin n) (c : Fin M) :
    FloatOps.matmul d prec lhs rhs (constant ⟨2, ![n, M]⟩ .f32 0x00000000#32) (ix2 p c)
      = ∑ k : Fin K, lhs (ix2 p k) * rhs (ix2 k c) :=
  (Ideal.matmul_constant_zero_apply d prec lhs rhs (ix2 p c)).trans
    (sum_contr d hd (fun a b => lhs a * rhs b) (ix2 p c))

/-- The host's dot_general of plain dimension numbers, at entry (p, c). -/
theorem dotGeneral_apply (d : DotDims ⟨2, ![n, K]⟩ ⟨2, ![K, M]⟩ ⟨2, ![n, M]⟩) (hd : IsPlain d) (prec : Option ContractPrecision)
    (sched : HostSchedule) (lhs : FVec Ideal ⟨2, ![n, K]⟩ φ₁) (rhs : FVec Ideal ⟨2, ![K, M]⟩ φ₂) (p : Fin n) (c : Fin M) :
    FloatOps.dotGeneral d prec sched lhs rhs (ix2 p c) = ∑ k : Fin K, lhs (ix2 p k) * rhs (ix2 k c) :=
  (Ideal.dotGeneral_apply d prec sched lhs rhs (ix2 p c)).trans
    (sum_contr d hd (fun a b => lhs a * rhs b) (ix2 p c))

end Cert.LibDotApply

end
-- ==== Proof.BodyValue.lean ====
/-
  What the kernel body computes at one entry of a row block, over the extended reals.

  The body holds 256 rows of x, h and c, the whole fused weight matrix and the bias row. It joins the x and h rows side
  by side, multiplies by the weights into a zero accumulator, adds the bias row to every row, cuts the 4096 columns into
  the four gates, and combines them entry by entry. Narrowing to bf16 on the way into the product changes nothing over
  the extended reals. So entry (r, q) of the stored values is the specification's cell and hidden state at row
  256 t + r of the batch, whenever the loaded blocks are rows [256 t, 256 t + 256) of the arrays.
-/
import proofs.«118580_j32933809225810_1_alg».proof.Proof.Gen.KernelIdeal.Skeleton
import proofs.«118580_j32933809225810_1_alg».proof.Proof.CellSpec
import proofs.«118580_j32933809225810_1_alg».proof.Proof.LibDotApply
import Idealize.ShloMosaic.Lib.Pipeline.Value
import Idealize.ShloMosaic.Lib.ValueIdx
import Idealize.ShloMosaic.PureOps.Ideal.Laws

noncomputable section

namespace Cert.KernelIdeal.BodyValue

open Idealize.ShloMosaic Idealize.ShloMosaic.ValueIdx
open Cert.KernelIdeal Cert.KernelIdeal.Gen Cert.CellSpec

/-- Row r of block t is row 256 t + r of the batch. -/
abbrev rowOf (t : Fin 32) (r : Fin 256) : Fin 8192 := ⟨t.val * 256 + r.val, by have := t.isLt; have := r.isLt; omega⟩

/-! ## The body's three values at an entry -/

/-- A column slice of the 4096 pre-activation columns, at (r, q), is column o + q. -/
theorem slice_at (g : S256x4096.Idx → EReal) (o : Nat) (ho : o + 1024 ≤ 4096) (h : S256x4096.Slices ![0, o] S256x1024)
    (r : Fin 256) (q : Fin 1024) :
    extractStridedSlice S256x1024 ![0, o] g h (ix2 r q) = g (ix2 r (col o ho q)) :=
  extractStridedSlice_apply _ g h (ix2 r q) (ix2 r (col o ho q)) (fun a => by
    match a with
    | ⟨0, _⟩ => show r.val = 0 + r.val; omega
    | ⟨1, _⟩ => rfl)

/-- The pre-activations: the joined rows against the weights, plus the bias row. -/
theorem preact_at (v0 v2 : S256x1024.Idx → EReal) (v5 : S2048x4096.Idx → EReal) (v8 : S1x4096.Idx → EReal)
    (r : Fin 256) (j : Fin 4096) :
    k0_pay1 (F := Ideal) v0 v2 v5 v8 (ix2 r j)
      = (∑ k : Fin 2048, (concatenate S256x2048 1 [⟨S256x1024, v0⟩, ⟨S256x1024, v2⟩] concatenates_S256x1024_S256x1024_S256x2048_d1) (ix2 r k)
            * v5 (ix2 k j)) + v8 (ix2 0 j) := by
  unfold k0_pay1
  have hm := Cert.LibDotApply.matmul_zero_apply (φ₁ := .bf16) (φ₂ := .bf16) dot_S256x2048_S2048x4096_S256x4096_1_0_0_1_n_n ⟨rfl, rfl, rfl, rfl, rfl, rfl⟩ none
    (concatenate S256x2048 1 [⟨S256x1024, v0⟩, ⟨S256x1024, v2⟩] concatenates_S256x1024_S256x1024_S256x2048_d1) v5 r j
  have hb : broadcastTo S256x4096 (shapeCast S1x4096 v8 shapeCasts_S1x4096_S1x4096) broadcasts_S1x4096_S256x4096 (ix2 r j) = v8 (ix2 0 j) := by
    rw [shapeCast_self]
    exact broadcastTo_apply v8 broadcasts_S1x4096_S256x4096 (ix2 r j) (ix2 0 j) (fun a => by
      match a with
      | ⟨0, _⟩ => show (0 : Nat) = if (1 : Nat) = 1 then 0 else r.val; rw [if_pos rfl]
      | ⟨1, _⟩ => show j.val = if (4096 : Nat) = 1 then 0 else j.val; rw [if_neg (by decide)])
  rw [shapeCast_self]
  exact congrArg₂ (· + ·) hm hb

/-- The new cell state's payload. -/
theorem cell_payload_at (v0 v2 v20 : S256x1024.Idx → EReal) (v5 : S2048x4096.Idx → EReal) (v8 : S1x4096.Idx → EReal)
    (r : Fin 256) (q : Fin 1024) :
    k0_pay2 (F := Ideal) v0 v2 v5 v8 v20 (ix2 r q)
      = Ideal.logistic (k0_pay1 (F := Ideal) v0 v2 v5 v8 (ix2 r (col 1024 (by norm_num) q))) * v20 (ix2 r q)
        + Ideal.logistic (k0_pay1 (F := Ideal) v0 v2 v5 v8 (ix2 r (col 0 (by norm_num) q)))
          * Ideal.tanh (k0_pay1 (F := Ideal) v0 v2 v5 v8 (ix2 r (col 2048 (by norm_num) q))) := by
  unfold k0_pay2
  rw [← slice_at (k0_pay1 (F := Ideal) v0 v2 v5 v8) 1024 (by norm_num) slices_S256x4096_o0_1024_S256x1024 r q,
    ← slice_at (k0_pay1 (F := Ideal) v0 v2 v5 v8) 0 (by norm_num) slices_S256x4096_o0_0_S256x1024 r q,
    ← slice_at (k0_pay1 (F := Ideal) v0 v2 v5 v8) 2048 (by norm_num) slices_S256x4096_o0_2048_S256x1024 r q]
  rfl

/-- The new hidden state's payload. -/
theorem hidden_payload_at (v0 v2 v20 : S256x1024.Idx → EReal) (v5 : S2048x4096.Idx → EReal) (v8 : S1x4096.Idx → EReal)
    (r : Fin 256) (q : Fin 1024) :
    k0_pay3 (F := Ideal) v0 v2 v5 v8 v20 (ix2 r q)
      = Ideal.logistic (k0_pay1 (F := Ideal) v0 v2 v5 v8 (ix2 r (col 3072 (by norm_num) q)))
        * Ideal.tanh (k0_pay2 (F := Ideal) v0 v2 v5 v8 v20 (ix2 r q)) := by
  unfold k0_pay3
  rw [← slice_at (k0_pay1 (F := Ideal) v0 v2 v5 v8) 3072 (by norm_num) slices_S256x4096_o0_3072_S256x1024 r q]
  rfl

/-! ## Rows of the joined input -/

/-- A row block of [x, h] joined side by side is the row blocks of x and of h joined side by side. -/
theorem joined_row (x h : Rows.Idx → EReal) (v0 v2 : S256x1024.Idx → EReal) (t : Fin 32)
    (hx : ∀ (r : Fin 256) (k : Fin 1024), v0 (ix2 r k) = x (ix2 (rowOf t r) k))
    (hh : ∀ (r : Fin 256) (k : Fin 1024), v2 (ix2 r k) = h (ix2 (rowOf t r) k))
    (HC : Shape.Concatenates [Rows, Rows] Joined 1)
    (r : Fin 256) (k : Fin 2048) :
    concatenate S256x2048 1 [⟨S256x1024, v0⟩, ⟨S256x1024, v2⟩] concatenates_S256x1024_S256x1024_S256x2048_d1 (ix2 r k)
      = concatenate Joined 1 [⟨Rows, x⟩, ⟨Rows, h⟩] HC (ix2 (rowOf t r) k) := by
  by_cases hk : k.val < 1024
  · rw [concatenate_pair_apply_left 1 v0 v2 concatenates_S256x1024_S256x1024_S256x2048_d1 (ix2 r k) rfl (ix2 r ⟨k.val, hk⟩) (fun b => by
        match b with
        | ⟨0, _⟩ => rfl
        | ⟨1, _⟩ => rfl),
      concatenate_pair_apply_left 1 x h HC (ix2 (rowOf t r) k) rfl (ix2 (rowOf t r) ⟨k.val, hk⟩) (fun b => by
        match b with
        | ⟨0, _⟩ => rfl
        | ⟨1, _⟩ => rfl)]
    exact hx r _
  · have hk' : k.val - 1024 < 1024 := by have := k.isLt; omega
    rw [concatenate_pair_apply_right 1 v0 v2 concatenates_S256x1024_S256x1024_S256x2048_d1 (ix2 r k) rfl rfl (ix2 r ⟨k.val - 1024, hk'⟩) (fun b hb => by
        match b with
        | ⟨0, _⟩ => rfl
        | ⟨1, _⟩ => exact absurd rfl hb) (by show k.val - 1024 + 1024 = k.val; omega),
      concatenate_pair_apply_right 1 x h HC (ix2 (rowOf t r) k) rfl rfl (ix2 (rowOf t r) ⟨k.val - 1024, hk'⟩) (fun b hb => by
        match b with
        | ⟨0, _⟩ => rfl
        | ⟨1, _⟩ => exact absurd rfl hb) (by show k.val - 1024 + 1024 = k.val; omega)]
    exact hh r _

/-! ## The body's values are the specification's -/

section Block
variable (x h cc : Rows.Idx → EReal) (W : Weights.Idx → EReal) (b : Biases.Idx → EReal)
  (HC : Shape.Concatenates [Rows, Rows] Joined 1)
  (v0 v2 v20 : S256x1024.Idx → EReal) (v5 : S2048x4096.Idx → EReal) (v8 : S1x4096.Idx → EReal) (t : Fin 32)
  (hx : ∀ (r : Fin 256) (k : Fin 1024), v0 (ix2 r k) = x (ix2 (rowOf t r) k))
  (hh : ∀ (r : Fin 256) (k : Fin 1024), v2 (ix2 r k) = h (ix2 (rowOf t r) k))
  (hc : ∀ (r : Fin 256) (q : Fin 1024), v20 (ix2 r q) = cc (ix2 (rowOf t r) q))
  (hW : ∀ (k : Fin 2048) (j : Fin 4096), v5 (ix2 k j) = W (ix2 k j))
  (hb : ∀ j : Fin 4096, v8 (ix2 0 j) = b (ix1 j))
include hx hh hW hb

/-- The body's pre-activation at (r, j) is the specification's at row 256 t + r. -/
theorem preact_is (r : Fin 256) (j : Fin 4096) :
    k0_pay1 (F := Ideal) v0 v2 v5 v8 (ix2 r j) = gate (concatenate Joined 1 [⟨Rows, x⟩, ⟨Rows, h⟩] HC) W b (rowOf t r) j := by
  rw [preact_at, hb]
  unfold gate
  refine congrArg (· + b (ix1 j)) (Finset.sum_congr rfl fun k _ => ?_)
  rw [joined_row x h v0 v2 t hx hh HC r k, hW]

include hc

/-- The stored cell value at (r, q) is the specification's new cell state at row 256 t + r. -/
theorem cell_is (r : Fin 256) (q : Fin 1024) :
    k0_pay2 (F := Ideal) v0 v2 v5 v8 v20 (ix2 r q) = cellAt (concatenate Joined 1 [⟨Rows, x⟩, ⟨Rows, h⟩] HC) W b cc (rowOf t r) q := by
  rw [cell_payload_at, preact_is x h W b HC v0 v2 v5 v8 t hx hh hW hb, preact_is x h W b HC v0 v2 v5 v8 t hx hh hW hb,
    preact_is x h W b HC v0 v2 v5 v8 t hx hh hW hb, hc]
  rfl

/-- The stored hidden value at (r, q) is the specification's new hidden state at row 256 t + r. -/
theorem hidden_is (r : Fin 256) (q : Fin 1024) :
    k0_pay3 (F := Ideal) v0 v2 v5 v8 v20 (ix2 r q) = hiddenAt (concatenate Joined 1 [⟨Rows, x⟩, ⟨Rows, h⟩] HC) W b cc (rowOf t r) q := by
  rw [hidden_payload_at, preact_is x h W b HC v0 v2 v5 v8 t hx hh hW hb, cell_is x h cc W b HC v0 v2 v20 v5 v8 t hx hh hc hW hb]
  rfl

end Block

end Cert.KernelIdeal.BodyValue

end
-- ==== Proof.KernelBlocks.lean ====
/-
  The blocks the idealized kernel's body is handed, as rows of the arrays.

  The weight window holds the four gate matrices joined side by side (narrowed to bf16, which is no change over the
  extended reals) and the bias window the four biases joined end to end and laid out as one row: that is what the host
  operations before the region wrote. At grid point t the x, h and c windows hold rows [256 t, 256 t + 256) of their
  arrays; the weight and bias windows hold their whole arrays at every point.
-/
import proofs.«118580_j32933809225810_1_alg».proof.Proof.RegionIdeal
import proofs.«118580_j32933809225810_1_alg».proof.Proof.BodyValue
import Idealize.ShloMosaic.Lib.Pipeline.Value
import Idealize.ShloMosaic.Lib.StableHlo.Run

set_option maxRecDepth 16384

noncomputable section

namespace Cert.KernelIdeal.Blocks

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Region Cert.KernelIdeal.BodyValue Cert.CellSpec

variable (m : (ℓ : Loc nD τ sig) → Buf (Elt Ideal) ℓ) (ρ : Dev nD → PrngReg)

/-! ## What the host operations built -/

/-- The four gate matrices side by side. -/
def fusedW (c : Dev nD) : Weights.Idx → EReal :=
  concatenate S2048x4096 1 [⟨S2048x1024, m ((c : Thread nD τ).loc main_arg3)⟩, ⟨S2048x1024, m ((c : Thread nD τ).loc main_arg5)⟩,
    ⟨S2048x1024, m ((c : Thread nD τ).loc main_arg7)⟩, ⟨S2048x1024, m ((c : Thread nD τ).loc main_arg9)⟩]
    concatenates_S2048x1024_S2048x1024_S2048x1024_S2048x1024_S2048x4096_d1

/-- The four gate biases end to end. -/
def fusedB (c : Dev nD) : Biases.Idx → EReal :=
  concatenate S4096 0 [⟨S1024, m ((c : Thread nD τ).loc main_arg4)⟩, ⟨S1024, m ((c : Thread nD τ).loc main_arg6)⟩,
    ⟨S1024, m ((c : Thread nD τ).loc main_arg8)⟩, ⟨S1024, m ((c : Thread nD τ).loc main_arg10)⟩]
    concatenates_S1024_S1024_S1024_S1024_S4096_d0

/-- The weight window's array at region entry. -/
theorem entry_weights (c : Dev nD) : (atEntry m c main_v1 : S2048x4096.Idx → EReal) = fusedW m c := by
  dsimp only [atEntry, hostOps0]
  after_results
  rfl

/-- The bias window's array at region entry: the fused bias as one row. -/
theorem entry_biasrow (c : Dev nD) :
    (atEntry m c main_v3 : S1x4096.Idx → EReal) = shapeCast S1x4096 (fusedB m c) shapeCasts_S4096_S1x4096 := by
  dsimp only [atEntry, hostOps0]
  after_results
  rfl

/-- Entry (0, j) of the one-row form is entry j. -/
theorem biasrow_at (bf : Biases.Idx → EReal) (j : Fin 4096) :
    shapeCast S1x4096 bf shapeCasts_S4096_S1x4096 (ix2 0 j) = bf (ix1 j) :=
  shapeCast_apply bf shapeCasts_S4096_S1x4096 (ix2 0 j) (ix1 j) (by
    rw [Shape.rowMajor_val_one, Shape.rowMajor_val_two]
    show j.val = 0 * 4096 + j.val
    omega)

/-! ## Where each window's block sits -/

/-- The printed index maps over the 32 grid points: the five row-blocked windows are at block row t, column block 0;
    the weight and bias windows never move. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- A grid point as a block number below 32. -/
abbrev blockNo (t : Fin cfg0.N) : Fin 32 := t.cast N_0

/-- The x window's block is rows [256 t, 256 t + 256) of x, -/
theorem x_rows (c : Dev nD) (t : Fin cfg0.N) (r : Fin 256) (k : Fin 1024) :
    blockAt m c 0 t (ix2 r k) = m ((c : Thread nD τ).loc main_arg0) (ix2 (rowOf (blockNo t) r) k) := by
  show atEntry m c main_arg0 (((cfg0.win 0).blk t).view.emb (ix2 r k)) = _
  rw [atEntry_arg0]
  refine congrArg _ (funext fun a => Fin.ext ?_)
  obtain ⟨e00, e01, -⟩ := index_facts t
  match a with
  | ⟨0, _⟩ => show win0_0.index t (0 : Fin 2) * 256 + 1 * r.val = t.val * 256 + r.val; omega
  | ⟨1, _⟩ => show win0_0.index t (1 : Fin 2) * 1024 + 1 * k.val = k.val; omega

/-- the h window's the same rows of h, -/
theorem h_rows (c : Dev nD) (t : Fin cfg0.N) (r : Fin 256) (k : Fin 1024) :
    blockAt m c 1 t (ix2 r k) = m ((c : Thread nD τ).loc main_arg1) (ix2 (rowOf (blockNo t) r) k) := by
  show atEntry m c main_arg1 (((cfg0.win 1).blk t).view.emb (ix2 r k)) = _
  rw [atEntry_arg1]
  refine congrArg _ (funext fun a => Fin.ext ?_)
  obtain ⟨-, -, e10, e11, -⟩ := index_facts t
  match a with
  | ⟨0, _⟩ => show win0_1.index t (0 : Fin 2) * 256 + 1 * r.val = t.val * 256 + r.val; omega
  | ⟨1, _⟩ => show win0_1.index t (1 : Fin 2) * 1024 + 1 * k.val = k.val; omega

/-- the c window's the same rows of c, -/
theorem c_rows (c : Dev nD) (t : Fin cfg0.N) (r : Fin 256) (k : Fin 1024) :
    blockAt m c 2 t (ix2 r k) = m ((c : Thread nD τ).loc main_arg2) (ix2 (rowOf (blockNo t) r) k) := by
  show atEntry m c main_arg2 (((cfg0.win 2).blk t).view.emb (ix2 r k)) = _
  rw [atEntry_arg2]
  refine congrArg _ (funext fun a => Fin.ext ?_)
  obtain ⟨-, -, -, -, e20, e21, -⟩ := index_facts t
  match a with
  | ⟨0, _⟩ => show win0_2.index t (0 : Fin 2) * 256 + 1 * r.val = t.val * 256 + r.val; omega
  | ⟨1, _⟩ => show win0_2.index t (1 : Fin 2) * 1024 + 1 * k.val = k.val; omega

/-- the weight window's the whole fused matrix, -/
theorem w_whole (c : Dev nD) (t : Fin cfg0.N) (k : Fin 2048) (j : Fin 4096) :
    blockAt m c 3 t (ix2 k j) = fusedW m c (ix2 k j) := by
  show atEntry m c main_v1 (((cfg0.win 3).blk t).view.emb (ix2 k j)) = _
  rw [entry_weights]
  refine congrArg _ (funext fun a => Fin.ext ?_)
  obtain ⟨-, -, -, -, -, -, e30, e31, -⟩ := index_facts t
  match a with
  | ⟨0, _⟩ => show win0_3.index t (0 : Fin 2) * 2048 + 1 * k.val = k.val; omega
  | ⟨1, _⟩ => show win0_3.index t (1 : Fin 2) * 4096 + 1 * j.val = j.val; omega

/-- and the bias window's the fused bias. -/
theorem b_whole (c : Dev nD) (t : Fin cfg0.N) (j : Fin 4096) :
    blockAt m c 4 t (ix2 0 j) = fusedB m c (ix1 j) := by
  show atEntry m c main_v3 (((cfg0.win 4).blk t).view.emb (ix2 0 j)) = _
  rw [entry_biasrow]
  refine Eq.trans ?_ (biasrow_at (fusedB m c) j)
  refine congrArg _ (funext fun a => Fin.ext ?_)
  obtain ⟨-, -, -, -, -, -, -, -, e40, e41, -⟩ := index_facts t
  match a with
  | ⟨0, _⟩ => show win0_4.index t (0 : Fin 2) * 1 + 1 * 0 = 0; omega
  | ⟨1, _⟩ => show win0_4.index t (1 : Fin 2) * 4096 + 1 * j.val = j.val; omega

end Cert.KernelIdeal.Blocks

end
-- ==== Proof.KernelArrays.lean ====
/-
  The idealized kernel's two result arrays, whole.

  Grid point t of the region writes back rows [256 t, 256 t + 256) of each result. Those 32 row blocks tile the
  8192 rows, and by the body's value at an entry each block is the same rows of the specification's array.
-/
import proofs.«118580_j32933809225810_1_alg».proof.Proof.KernelBlocks

set_option maxRecDepth 16384

noncomputable section

namespace Cert.KernelIdeal.Arrays

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Region Cert.KernelIdeal.BodyValue Cert.CellSpec Cert.KernelIdeal.Blocks

variable (m : (ℓ : Loc nD τ sig) → Buf (Elt Ideal) ℓ) (ρ : Dev nD → PrngReg)

/-! ## What a grid point writes back -/

theorem zero_offsets : (![0, 0] : Fin 2 → Nat) = fun _ => 0 := funext fun a => by fin_cases a <;> rfl

/-- The joined input of the specification, from the launch contents. -/
abbrev joinedX (HC : Shape.Concatenates [Rows, Rows] Joined 1) (c : Dev nD) : Joined.Idx → EReal :=
  concatenate Joined 1 [⟨Rows, m ((c : Thread nD τ).loc main_arg0)⟩, ⟨Rows, m ((c : Thread nD τ).loc main_arg1)⟩] HC

variable (HC : Shape.Concatenates [Rows, Rows] Joined 1)

/-- Point t writes back block t of the specification's hidden array, -/
theorem written_hidden (c : Dev nD) (t : Fin cfg0.N) :
    (runData m 0 c).flushed 5 t = ((cfg0.win 5).blk t).view.read (Elt Ideal)
      (hiddenArr (joinedX m HC c) (fusedW m c) (fusedB m c) (m ((c : Thread nD τ).loc main_arg2))) := by
  show (cfg0.win 5).cut (grid0.coords t) ((runData m 0 c).after 5 t) = _
  rw [after_5]
  unfold leftHidden
  rw [View.canon_unit_zero zero_offsets]
  simp only [View.ld_unit_zero (S := S256x1024) zero_offsets, View.ld_unit_zero (S := S2048x4096) zero_offsets,
    View.ld_unit_zero (S := S1x4096) zero_offsets]
  funext j
  show k0_pay3 (F := Ideal) (blockAt m c 0 t) (blockAt m c 1 t) (blockAt m c 3 t) (blockAt m c 4 t) (blockAt m c 2 t) j
    = hiddenArr (joinedX m HC c) (fusedW m c) (fusedB m c) (m ((c : Thread nD τ).loc main_arg2)) (((cfg0.win 5).blk t).view.emb j)
  refine (congrArg (k0_pay3 (F := Ideal) (blockAt m c 0 t) (blockAt m c 1 t) (blockAt m c 3 t) (blockAt m c 4 t) (blockAt m c 2 t))
    (eq_ix2 (n0 := 256) (n1 := 1024) j)).trans ?_
  refine (hidden_is (m ((c : Thread nD τ).loc main_arg0)) (m ((c : Thread nD τ).loc main_arg1)) (m ((c : Thread nD τ).loc main_arg2))
    (fusedW m c) (fusedB m c) HC (blockAt m c 0 t) (blockAt m c 1 t) (blockAt m c 2 t) (blockAt m c 3 t) (blockAt m c 4 t) (blockNo t)
    (x_rows m c t) (h_rows m c t) (c_rows m c t) (w_whole m c t) (b_whole m c t) (j 0) (j 1)).trans ?_
  obtain ⟨-, -, -, -, -, -, -, -, -, -, e50, e51, -⟩ := index_facts t
  have e0 : rowOf (blockNo t) (j 0) = (((cfg0.win 5).blk t).view.emb j) 0 :=
    Fin.ext (by show t.val * 256 + (j 0).val = win0_5.index t (0 : Fin 2) * 256 + 1 * (j 0).val; omega)
  have e1 : (j 1 : Fin 1024) = (((cfg0.win 5).blk t).view.emb j) 1 :=
    Fin.ext (by show (j 1).val = win0_5.index t (1 : Fin 2) * 1024 + 1 * (j 1).val; omega)
  exact congrArg₂ (hiddenAt (joinedX m HC c) (fusedW m c) (fusedB m c) (m ((c : Thread nD τ).loc main_arg2))) e0 e1

/-- and block t of its cell array. -/
theorem written_cell (c : Dev nD) (t : Fin cfg0.N) :
    (runData m 0 c).flushed 6 t = ((cfg0.win 6).blk t).view.read (Elt Ideal)
      (cellArr (joinedX m HC c) (fusedW m c) (fusedB m c) (m ((c : Thread nD τ).loc main_arg2))) := by
  show (cfg0.win 6).cut (grid0.coords t) ((runData m 0 c).after 6 t) = _
  rw [after_6]
  unfold leftCell
  rw [View.canon_unit_zero zero_offsets]
  simp only [View.ld_unit_zero (S := S256x1024) zero_offsets, View.ld_unit_zero (S := S2048x4096) zero_offsets,
    View.ld_unit_zero (S := S1x4096) zero_offsets]
  funext j
  show k0_pay2 (F := Ideal) (blockAt m c 0 t) (blockAt m c 1 t) (blockAt m c 3 t) (blockAt m c 4 t) (blockAt m c 2 t) j
    = cellArr (joinedX m HC c) (fusedW m c) (fusedB m c) (m ((c : Thread nD τ).loc main_arg2)) (((cfg0.win 6).blk t).view.emb j)
  refine (congrArg (k0_pay2 (F := Ideal) (blockAt m c 0 t) (blockAt m c 1 t) (blockAt m c 3 t) (blockAt m c 4 t) (blockAt m c 2 t))
    (eq_ix2 (n0 := 256) (n1 := 1024) j)).trans ?_
  refine (cell_is (m ((c : Thread nD τ).loc main_arg0)) (m ((c : Thread nD τ).loc main_arg1)) (m ((c : Thread nD τ).loc main_arg2))
    (fusedW m c) (fusedB m c) HC (blockAt m c 0 t) (blockAt m c 1 t) (blockAt m c 2 t) (blockAt m c 3 t) (blockAt m c 4 t) (blockNo t)
    (x_rows m c t) (h_rows m c t) (c_rows m c t) (w_whole m c t) (b_whole m c t) (j 0) (j 1)).trans ?_
  obtain ⟨-, -, -, -, -, -, -, -, -, -, -, -, e60, e61⟩ := index_facts t
  have e0 : rowOf (blockNo t) (j 0) = (((cfg0.win 6).blk t).view.emb j) 0 :=
    Fin.ext (by show t.val * 256 + (j 0).val = win0_6.index t (0 : Fin 2) * 256 + 1 * (j 0).val; omega)
  have e1 : (j 1 : Fin 1024) = (((cfg0.win 6).blk t).view.emb j) 1 :=
    Fin.ext (by show (j 1).val = win0_6.index t (1 : Fin 2) * 1024 + 1 * (j 1).val; omega)
  exact congrArg₂ (cellAt (joinedX m HC c) (fusedW m c) (fusedB m c) (m ((c : Thread nD τ).loc main_arg2))) e0 e1

/-! ## The 32 row blocks tile the 8192 rows -/

theorem in_block5 (t : Fin cfg0.N) (i : S8192x1024.Idx) :
    i ∈ ((cfg0.win 5).blk t).view.set ↔ ∀ a : Fin 2, win0_5.index t a * S256x1024.size a ≤ (i a).val
      ∧ (i a).val < win0_5.index t a * S256x1024.size a + S256x1024.size a := by
  show i ∈ ((View.whole main_v4_0).slice (win0_5.rect t)).set ↔ _
  rw [View.set_slice_whole, Rect.mem_set_unit]
  exact Iff.rfl

theorem in_block6 (t : Fin cfg0.N) (i : S8192x1024.Idx) :
    i ∈ ((cfg0.win 6).blk t).view.set ↔ ∀ a : Fin 2, win0_6.index t a * S256x1024.size a ≤ (i a).val
      ∧ (i a).val < win0_6.index t a * S256x1024.size a + S256x1024.size a := by
  show i ∈ ((View.whole main_v4_1).slice (win0_6.rect t)).set ↔ _
  rw [View.set_slice_whole, Rect.mem_set_unit]
  exact Iff.rfl

/-- Row i of the batch lies in block i / 256. -/
theorem covered5 (i : S8192x1024.Idx) : ∃ t : Fin cfg0.N, (cfg0.win 5).flush t = true ∧ i ∈ ((cfg0.win 5).blk t).view.set := by
  have hi0 : (i 0).val < 8192 := (i 0).isLt
  have hi1 : (i 1).val < 1024 := (i 1).isLt
  refine ⟨⟨(i 0).val / 256, by rw [show cfg0.N = 32 from N_0]; omega⟩, flush0_5 _, ?_⟩
  rw [in_block5]
  obtain ⟨-, -, -, -, -, -, -, -, -, -, e50, e51, -⟩ := index_facts ⟨(i 0).val / 256, by rw [show cfg0.N = 32 from N_0]; omega⟩
  intro a
  match a with
  | ⟨0, _⟩ =>
    show win0_5.index _ (0 : Fin 2) * 256 ≤ (i 0).val ∧ (i 0).val < win0_5.index _ (0 : Fin 2) * 256 + 256
    rw [e50]; show (i 0).val / 256 * 256 ≤ (i 0).val ∧ (i 0).val < (i 0).val / 256 * 256 + 256; omega
  | ⟨1, _⟩ =>
    show win0_5.index _ (1 : Fin 2) * 1024 ≤ (i 1).val ∧ (i 1).val < win0_5.index _ (1 : Fin 2) * 1024 + 1024
    rw [e51]; omega

theorem covered6 (i : S8192x1024.Idx) : ∃ t : Fin cfg0.N, (cfg0.win 6).flush t = true ∧ i ∈ ((cfg0.win 6).blk t).view.set := by
  have hi0 : (i 0).val < 8192 := (i 0).isLt
  have hi1 : (i 1).val < 1024 := (i 1).isLt
  refine ⟨⟨(i 0).val / 256, by rw [show cfg0.N = 32 from N_0]; omega⟩, flush0_6 _, ?_⟩
  rw [in_block6]
  obtain ⟨-, -, -, -, -, -, -, -, -, -, -, -, e60, e61⟩ := index_facts ⟨(i 0).val / 256, by rw [show cfg0.N = 32 from N_0]; omega⟩
  intro a
  match a with
  | ⟨0, _⟩ =>
    show win0_6.index _ (0 : Fin 2) * 256 ≤ (i 0).val ∧ (i 0).val < win0_6.index _ (0 : Fin 2) * 256 + 256
    rw [e60]; show (i 0).val / 256 * 256 ≤ (i 0).val ∧ (i 0).val < (i 0).val / 256 * 256 + 256; omega
  | ⟨1, _⟩ =>
    show win0_6.index _ (1 : Fin 2) * 1024 ≤ (i 1).val ∧ (i 1).val < win0_6.index _ (1 : Fin 2) * 1024 + 1024
    rw [e61]; omega

/-! ## The two arrays after the run -/

theorem final_hidden (c : Dev nD) : (runData m 0 c).arrAt 5 cfg0.N
    = hiddenArr (joinedX m HC c) (fusedW m c) (fusedB m c) (m ((c : Thread nD τ).loc main_arg2)) :=
  (runData m 0 c).arrAt_eq_of_cover 5 _ (fun t _ => written_hidden m HC c t) covered5

theorem final_cell (c : Dev nD) : (runData m 0 c).arrAt 6 cfg0.N
    = cellArr (joinedX m HC c) (fusedW m c) (fusedB m c) (m ((c : Thread nD τ).loc main_arg2)) :=
  (runData m 0 c).arrAt_eq_of_cover 6 _ (fun t _ => written_cell m HC c t) covered6

/-- Every execution of the idealized kernel ends with its first result at the specification's hidden array and its
    second at the cell array, of the launch contents, and with the eleven arguments as launched. -/
theorem run : θ_run defs (onTc (τ := τ) (main (F := Ideal))) ⟨m, fun _ => 0, ρ⟩ (fun r => ∀ c : Dev nD,
      r.2.mem ((c.tc : Thread nD τ).loc main_v4_0) = hiddenArr (joinedX m HC c) (fusedW m c) (fusedB m c) (m ((c : Thread nD τ).loc main_arg2))
      ∧ r.2.mem ((c.tc : Thread nD τ).loc main_v4_1) = cellArr (joinedX m HC c) (fusedW m c) (fusedB m c) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨((h c).1 5).trans (final_hidden m HC c), ((h c).1 6).trans (final_cell m HC c),
    kept_of_post m r h c⟩) (run_main m ρ)

end Cert.KernelIdeal.Arrays

end
-- ==== Proof.RefSide.lean ====
/-
  The reference program is the LSTM cell of the specification.

  The reference joins x and h into X, the four gate matrices into W and the four biases into b, forms X W + b with one
  matrix product, cuts it into the four gates, and applies sigmoid (spelled 1 / (1 + e^(-g))), tanh and the cell update
  entry by entry. Each stage is read here at one entry (p, q); the joined arrays X, W, b are left as they are, since the
  kernel's host prefix builds W and b by the very same concatenations.
-/
import proofs.«118580_j32933809225810_1_alg».proof.Proof.Gen.ReferenceIdeal.Read
import proofs.«118580_j32933809225810_1_alg».proof.Proof.CellSpec

noncomputable section

namespace Cert.RefSide

open Idealize.ShloMosaic Idealize.ShloMosaic.ValueIdx
open Cert.ReferenceIdeal Cert.ReferenceIdeal.Read Cert.CellSpec

variable (x0 x1 x2 : (⟨S8192x1024, .f32⟩ : BufTy).Contents (Elt Ideal))
  (x3 : (⟨S2048x1024, .f32⟩ : BufTy).Contents (Elt Ideal)) (x4 : (⟨S1024, .f32⟩ : BufTy).Contents (Elt Ideal))
  (x5 : (⟨S2048x1024, .f32⟩ : BufTy).Contents (Elt Ideal)) (x6 : (⟨S1024, .f32⟩ : BufTy).Contents (Elt Ideal))
  (x7 : (⟨S2048x1024, .f32⟩ : BufTy).Contents (Elt Ideal)) (x8 : (⟨S1024, .f32⟩ : BufTy).Contents (Elt Ideal))
  (x9 : (⟨S2048x1024, .f32⟩ : BufTy).Contents (Elt Ideal)) (x10 : (⟨S1024, .f32⟩ : BufTy).Contents (Elt Ideal))

/-- The matrix product plus the broadcast bias, at (p, j), is the specification's pre-activation. -/
theorem gate_stage (p : Fin 8192) (j : Fin 4096) :
    val_main_v6 (F := Ideal) x0 x1 x3 x4 x5 x6 x7 x8 x9 x10 (ix2 p j) = gate (val_main_v0 (F := Ideal) x0 x1) (val_main_v1 (F := Ideal) x3 x5 x7 x9) (val_main_v2 (F := Ideal) x4 x6 x8 x10) p j := by
  rw [val_main_v6_apply, val_main_v3_apply, val_main_v5_apply, val_main_v4_apply]
  have el : ∀ k : Fin 2048, lidx_main_v3 (ix2 p j) k = ix2 p k := fun k => funext fun a => by
    match a with
    | ⟨0, _⟩ => rfl
    | ⟨1, _⟩ => rfl
  have er : ∀ k : Fin 2048, ridx_main_v3 (ix2 p j) k = ix2 k j := fun k => funext fun a => by
    match a with
    | ⟨0, _⟩ => rfl
    | ⟨1, _⟩ => rfl
  have eb : idx_main_v4 (idx_main_v5 (ix2 p j)) = ix1 j := funext fun a => by
    match a with
    | ⟨0, _⟩ => rfl
  simp only [el, er, eb]
  rfl

/-- The four column slices are the four gates' pre-activations. -/
theorem slice_in (p : Fin 8192) (q : Fin 1024) :
    val_main_v7 (F := Ideal) x0 x1 x3 x4 x5 x6 x7 x8 x9 x10 (ix2 p q) = gate (val_main_v0 (F := Ideal) x0 x1) (val_main_v1 (F := Ideal) x3 x5 x7 x9) (val_main_v2 (F := Ideal) x4 x6 x8 x10) p (col 0 (by norm_num) q) := by
  rw [val_main_v7_apply]
  have e : idx_main_v7 (ix2 p q) = ix2 p (col 0 (by norm_num) q) := funext fun a => by
    match a with
    | ⟨0, _⟩ => rfl
    | ⟨1, _⟩ => exact Fin.ext (by show q.val = 0 + q.val; omega)
  rw [e]; exact gate_stage x0 x1 x3 x4 x5 x6 x7 x8 x9 x10 p _
theorem slice_forget (p : Fin 8192) (q : Fin 1024) :
    val_main_v8 (F := Ideal) x0 x1 x3 x4 x5 x6 x7 x8 x9 x10 (ix2 p q) = gate (val_main_v0 (F := Ideal) x0 x1) (val_main_v1 (F := Ideal) x3 x5 x7 x9) (val_main_v2 (F := Ideal) x4 x6 x8 x10) p (col 1024 (by norm_num) q) := by
  rw [val_main_v8_apply]
  have e : idx_main_v8 (ix2 p q) = ix2 p (col 1024 (by norm_num) q) := funext fun a => by
    match a with
    | ⟨0, _⟩ => rfl
    | ⟨1, _⟩ => rfl
  rw [e]; exact gate_stage x0 x1 x3 x4 x5 x6 x7 x8 x9 x10 p _
theorem slice_cand (p : Fin 8192) (q : Fin 1024) :
    val_main_v9 (F := Ideal) x0 x1 x3 x4 x5 x6 x7 x8 x9 x10 (ix2 p q) = gate (val_main_v0 (F := Ideal) x0 x1) (val_main_v1 (F := Ideal) x3 x5 x7 x9) (val_main_v2 (F := Ideal) x4 x6 x8 x10) p (col 2048 (by norm_num) q) := by
  rw [val_main_v9_apply]
  have e : idx_main_v9 (ix2 p q) = ix2 p (col 2048 (by norm_num) q) := funext fun a => by
    match a with
    | ⟨0, _⟩ => rfl
    | ⟨1, _⟩ => rfl
  rw [e]; exact gate_stage x0 x1 x3 x4 x5 x6 x7 x8 x9 x10 p _
theorem slice_out (p : Fin 8192) (q : Fin 1024) :
    val_main_v10 (F := Ideal) x0 x1 x3 x4 x5 x6 x7 x8 x9 x10 (ix2 p q) = gate (val_main_v0 (F := Ideal) x0 x1) (val_main_v1 (F := Ideal) x3 x5 x7 x9) (val_main_v2 (F := Ideal) x4 x6 x8 x10) p (col 3072 (by norm_num) q) := by
  rw [val_main_v10_apply]
  have e : idx_main_v10 (ix2 p q) = ix2 p (col 3072 (by norm_num) q) := funext fun a => by
    match a with
    | ⟨0, _⟩ => rfl
    | ⟨1, _⟩ => rfl
  rw [e]; exact gate_stage x0 x1 x3 x4 x5 x6 x7 x8 x9 x10 p _

/-- negate, exponential, add one, divide one by it: the sigmoid of the input gate, -/
theorem sig_in (p : Fin 8192) (q : Fin 1024) :
    val_main_v16 (F := Ideal) x0 x1 x3 x4 x5 x6 x7 x8 x9 x10 (ix2 p q) = Ideal.logistic (gate (val_main_v0 (F := Ideal) x0 x1) (val_main_v1 (F := Ideal) x3 x5 x7 x9) (val_main_v2 (F := Ideal) x4 x6 x8 x10) p (col 0 (by norm_num) q)) := by
  rw [val_main_v16_apply, val_main_v15_apply, val_main_cst_0_apply, val_main_v14_apply, val_main_v13_apply, val_main_cst_apply,
    val_main_v12_apply, val_main_v11_apply, slice_in]
  exact sigmoid_spelled _
/-- of the forget gate, -/
theorem sig_forget (p : Fin 8192) (q : Fin 1024) :
    val_main_v22 (F := Ideal) x0 x1 x3 x4 x5 x6 x7 x8 x9 x10 (ix2 p q) = Ideal.logistic (gate (val_main_v0 (F := Ideal) x0 x1) (val_main_v1 (F := Ideal) x3 x5 x7 x9) (val_main_v2 (F := Ideal) x4 x6 x8 x10) p (col 1024 (by norm_num) q)) := by
  rw [val_main_v22_apply, val_main_v21_apply, val_main_cst_2_apply, val_main_v20_apply, val_main_v19_apply, val_main_cst_1_apply,
    val_main_v18_apply, val_main_v17_apply, slice_forget]
  exact sigmoid_spelled _
/-- and of the output gate. -/
theorem sig_out (p : Fin 8192) (q : Fin 1024) :
    val_main_v29 (F := Ideal) x0 x1 x3 x4 x5 x6 x7 x8 x9 x10 (ix2 p q) = Ideal.logistic (gate (val_main_v0 (F := Ideal) x0 x1) (val_main_v1 (F := Ideal) x3 x5 x7 x9) (val_main_v2 (F := Ideal) x4 x6 x8 x10) p (col 3072 (by norm_num) q)) := by
  rw [val_main_v29_apply, val_main_v28_apply, val_main_cst_4_apply, val_main_v27_apply, val_main_v26_apply, val_main_cst_3_apply,
    val_main_v25_apply, val_main_v24_apply, slice_out]
  exact sigmoid_spelled _

/-- The new cell state at (p, q). -/
theorem cell_stage (p : Fin 8192) (q : Fin 1024) :
    val_main_v32 (F := Ideal) x0 x1 x2 x3 x4 x5 x6 x7 x8 x9 x10 (ix2 p q) = cellAt (val_main_v0 (F := Ideal) x0 x1) (val_main_v1 (F := Ideal) x3 x5 x7 x9) (val_main_v2 (F := Ideal) x4 x6 x8 x10) x2 p q := by
  rw [val_main_v32_apply, val_main_v30_apply, val_main_v31_apply, sig_forget, sig_in, val_main_v23_apply, slice_cand]
  rfl

/-- The new hidden state at (p, q). -/
theorem hidden_stage (p : Fin 8192) (q : Fin 1024) :
    val_main_v34 (F := Ideal) x0 x1 x2 x3 x4 x5 x6 x7 x8 x9 x10 (ix2 p q) = hiddenAt (val_main_v0 (F := Ideal) x0 x1) (val_main_v1 (F := Ideal) x3 x5 x7 x9) (val_main_v2 (F := Ideal) x4 x6 x8 x10) x2 p q := by
  rw [val_main_v34_apply, sig_out, val_main_v33_apply, cell_stage]
  rfl

/-- The reference's second result is the specification's cell array, -/
theorem cell_is : val_main_v32 (F := Ideal) x0 x1 x2 x3 x4 x5 x6 x7 x8 x9 x10 = cellArr (val_main_v0 (F := Ideal) x0 x1) (val_main_v1 (F := Ideal) x3 x5 x7 x9) (val_main_v2 (F := Ideal) x4 x6 x8 x10) x2 := by
  funext i
  obtain ⟨p, q, rfl⟩ : ∃ (p : Fin 8192) (q : Fin 1024), i = ix2 p q := ⟨i 0, i 1, eq_ix2 i⟩
  exact cell_stage x0 x1 x2 x3 x4 x5 x6 x7 x8 x9 x10 p q

/-- and its first the hidden array. -/
theorem hidden_is : val_main_v34 (F := Ideal) x0 x1 x2 x3 x4 x5 x6 x7 x8 x9 x10 = hiddenArr (val_main_v0 (F := Ideal) x0 x1) (val_main_v1 (F := Ideal) x3 x5 x7 x9) (val_main_v2 (F := Ideal) x4 x6 x8 x10) x2 := by
  funext i
  obtain ⟨p, q, rfl⟩ : ∃ (p : Fin 8192) (q : Fin 1024), i = ix2 p q := ⟨i 0, i 1, eq_ix2 i⟩
  exact hidden_stage x0 x1 x2 x3 x4 x5 x6 x7 x8 x9 x10 p q

end Cert.RefSide

end
-- ==== Proof.lean ====
/-
  An LSTM cell step, fused into one pipelined kernel, against its plain reference.

  Both programs join x and h into one row per batch entry, multiply by the four gate matrices set side by side, add
  the four biases, and combine the gates entry by entry: cell = sigmoid(f) * c + sigmoid(i) * tanh(g),
  hidden = sigmoid(o) * tanh(cell). The kernel does it 256 batch rows at a time over 32 grid points, feeding the matrix
  unit bf16 copies of its operands; the reference does it in one matrix product. Over the extended reals narrowing is
  no change, a product into a zero accumulator is the plain sum over the contracted index in both, and the kernel's
  sigmoid operation is the reference's 1 / (1 + e^(-g)). So the two programs compute the same entries, term for term,
  with no algebra on the sums: the inputs' finiteness is never used.

  The frames: the kernel's host operations write only the fused weights and bias, the region writes only the two
  results, and the reference writes only its own intermediates.
-/
import proofs.«118580_j32933809225810_1_alg».proof.Defs
import proofs.«118580_j32933809225810_1_alg».proof.Proof.Gen.Kernel
import proofs.«118580_j32933809225810_1_alg».proof.Proof.Gen.Kernel.Skeleton
import proofs.«118580_j32933809225810_1_alg».proof.Proof.Gen.Kernel.Launch
import proofs.«118580_j32933809225810_1_alg».proof.Proof.Gen.Kernel.Points
import proofs.«118580_j32933809225810_1_alg».proof.Proof.Gen.KernelIdeal
import proofs.«118580_j32933809225810_1_alg».proof.Proof.Gen.KernelIdeal.Skeleton
import proofs.«118580_j32933809225810_1_alg».proof.Proof.Gen.KernelIdeal.Launch
import proofs.«118580_j32933809225810_1_alg».proof.Proof.Gen.KernelIdeal.Points
import proofs.«118580_j32933809225810_1_alg».proof.Proof.Gen.ReferenceIdeal
import proofs.«118580_j32933809225810_1_alg».proof.Proof.Gen.Pre_finite_inputs
import proofs.«118580_j32933809225810_1_alg».proof.Proof.Gen.ReferenceIdeal.Run
import proofs.«118580_j32933809225810_1_alg».proof.Proof.Gen.ReferenceIdeal.Read
import proofs.«118580_j32933809225810_1_alg».proof.Proof.RegionBits
import proofs.«118580_j32933809225810_1_alg».proof.Proof.RegionIdeal
import proofs.«118580_j32933809225810_1_alg».proof.Proof.KernelArrays
import proofs.«118580_j32933809225810_1_alg».proof.Proof.RefSide
import Idealize.ShloMosaic.Adequacy
import Idealize.ShloMosaic.Init

noncomputable section

namespace Cert.Proof

open Idealize.ShloMosaic Idealize.ShloMosaic.TcCoe Idealize.SL.Sem

/-- The kernel as printed: every execution ends, the arguments unchanged. -/
theorem frame_kernel : Cert.frame_Kernel := fun m ρ _ => Cert.Kernel.Region.args_kept m ρ

/-- The idealized kernel likewise. -/
theorem frame_kernel_ideal : Cert.frame_KernelIdeal := fun m ρ _ => Cert.KernelIdeal.Region.args_kept m ρ

/-- The reference is host operations only: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The reference joins x and h along axis 1: the shape fact, taken from the reference's own side conditions. -/
theorem joins : Shape.Concatenates [Cert.CellSpec.Rows, Cert.CellSpec.Rows] Cert.CellSpec.Joined 1 :=
  Cert.ReferenceIdeal.Facts₀.concatenates_S8192x1024_S8192x1024_S8192x2048_d1

/-- Both idealized programs end with the specification's hidden and cell arrays of the same arguments. -/
theorem algebraic : Cert.algebraic_KernelIdeal_ReferenceIdeal := by
  intro m ρ m' ρ' _ hagree
  refine ⟨fun c => Cert.CellSpec.hiddenArr (Cert.KernelIdeal.Arrays.joinedX m joins c) (Cert.KernelIdeal.Blocks.fusedW m c)
      (Cert.KernelIdeal.Blocks.fusedB m c) (m ((c.tc : Thread Cert.KernelIdeal.nD Cert.KernelIdeal.τ).loc Cert.KernelIdeal.main_arg2)),
    fun c => Cert.CellSpec.cellArr (Cert.KernelIdeal.Arrays.joinedX m joins c) (Cert.KernelIdeal.Blocks.fusedW m c)
      (Cert.KernelIdeal.Blocks.fusedB m c) (m ((c.tc : Thread Cert.KernelIdeal.nD Cert.KernelIdeal.τ).loc Cert.KernelIdeal.main_arg2)),
    Cert.KernelIdeal.Arrays.run m ρ joins, ?_⟩
  refine (θ_run Cert.ReferenceIdeal.defs _ _).mono (fun _ h c => ⟨?_, ?_, (h c).2.2⟩)
    (Cert.ReferenceIdeal.Value.run (F := Ideal) m' ρ')
  · refine ((h c).1).trans ?_
    refine (Cert.ReferenceIdeal.Read.val_main_v34_eq (F := Ideal) m' c).trans ?_
    refine (Cert.RefSide.hidden_is (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10))).trans ?_
    obtain ⟨a0, a1, a2, a3, a4, a5, a6, a7, a8, a9, a10⟩ := hagree c
    rw [a0, a1, a2, a3, a4, a5, a6, a7, a8, a9, a10]
    rfl
  · refine ((h c).2.1).trans ?_
    refine (Cert.ReferenceIdeal.Read.val_main_v32_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10))).trans ?_
    refine (Cert.RefSide.cell_is (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10))).trans ?_
    obtain ⟨a0, a1, a2, a3, a4, a5, a6, a7, a8, a9, a10⟩ := hagree c
    rw [a0, a1, a2, a3, a4, a5, a6, a7, a8, a9, a10]
    rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
